-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x256 : Shape := ⟨3, ![16, 512, 256]⟩
abbrev S16 : Shape := ⟨1, ![16]⟩
abbrev S16x1x512 : Shape := ⟨3, ![16, 1, 512]⟩
abbrev S16x80x2048 : Shape := ⟨3, ![16, 80, 2048]⟩
abbrev S16x1x2048 : Shape := ⟨3, ![16, 1, 2048]⟩
abbrev S_ : Shape := ⟨0, ![]⟩

class Facts : Prop where
  bcast_S_S16x512x256 : S_.BroadcastsInDim S16x512x256 (![] : Fin 0 → Fin S16x512x256.rank)
  reducesTo_S16x512x256_S_d0_1_2 : S16x512x256.ReducesTo [0, 1, 2] S_
  h_S_ : 0 < S_.numel
  bcast_S_S16x1x512 : S_.BroadcastsInDim S16x1x512 (![] : Fin 0 → Fin S16x1x512.rank)
  reducesTo_S16x1x512_S_d0_1_2 : S16x1x512.ReducesTo [0, 1, 2] S_
  bcast_S_S16x80x2048 : S_.BroadcastsInDim S16x80x2048 (![] : Fin 0 → Fin S16x80x2048.rank)
  reducesTo_S16x80x2048_S_d0_1_2 : S16x80x2048.ReducesTo [0, 1, 2] S_
  bcast_S_S16x1x2048 : S_.BroadcastsInDim S16x1x2048 (![] : Fin 0 → Fin S16x1x2048.rank)
  reducesTo_S16x1x2048_S_d0_1_2 : S16x1x2048.ReducesTo [0, 1, 2] S_

variable [Facts]

def fn_part1 {F : FTy → Type} [FloatOps F] (main_arg6 : FVec F S16x1x512 .f32) (main_arg7 : IVec S16x1x512 32) (main_v13 : IVec S_ 1) (main_v16 : IVec S16x1x2048 1) : IVec S_ 1 :=
  let main_c_5 : IVec S_ 1 := constantI S_ 1 1#1
  let main_v17 : IVec S_ 1 := (fun x v => Host.reduce IntOp.andi x v reducesTo_S16x1x2048_S_d0_1_2 h_S_) main_v16 main_c_5
  let main_v18 : IVec S_ 1 := andi main_v13 main_v17
  let main_v19 : FVec F S16x1x512 .f32 := Host.absf main_arg6
  let main_cst_6 : FVec F S_ .f32 := constant S_ .f32 0x7F800000#32
  let main_v20 : FVec F S16x1x512 .f32 := broadcastInDim S16x1x512 ![] bcast_S_S16x1x512 main_cst_6
  let main_v21 : IVec S16x1x512 1 := cmpf .olt main_v19 main_v20
  let main_c_7 : IVec S_ 1 := constantI S_ 1 1#1
  let main_v22 : IVec S_ 1 := (fun x v => Host.reduce IntOp.andi x v reducesTo_S16x1x512_S_d0_1_2 h_S_) main_v21 main_c_7
  let main_v23 : IVec S_ 1 := andi main_v18 main_v22
  let main_c_8 : IVec S_ 32 := constantI S_ 32 0#32
  let main_v24 : IVec S16x1x512 32 := broadcastInDim S16x1x512 ![] bcast_S_S16x1x512 main_c_8
  let main_v25 : IVec S16x1x512 1 := cmpi .sge main_arg7 main_v24
  let main_c_9 : IVec S_ 1 := constantI S_ 1 1#1
  let main_v26 : IVec S_ 1 := (fun x v => Host.reduce IntOp.andi x v reducesTo_S16x1x512_S_d0_1_2 h_S_) main_v25 main_c_9
  let main_v27 : IVec S_ 1 := andi main_v23 main_v26
  let main_c_10 : IVec S_ 32 := constantI S_ 32 4194303#32
  let main_v28 : IVec S16x1x512 32 := broadcastInDim S16x1x512 ![] bcast_S_S16x1x512 main_c_10
  let main_v29 : IVec S16x1x512 1 := cmpi .sle main_arg7 main_v28
  let main_c_11 : IVec S_ 1 := constantI S_ 1 1#1
  let main_v30 : IVec S_ 1 := (fun x v => Host.reduce IntOp.andi x v reducesTo_S16x1x512_S_d0_1_2 h_S_) main_v29 main_c_11
  let main_v31 : IVec S_ 1 := andi main_v27 main_v30
  main_v31

def fn {F : FTy → Type} [FloatOps F] (main_arg0 : FVec F S16x512x256 .f32) (main_arg1 : IVec S16 32) (main_arg2 : FVec F S16x1x512 .f32) (main_arg3 : FVec F S16x80x2048 .f32) (main_arg4 : IVec S16 32) (main_arg5 : FVec F S16x1x2048 .f32) (main_arg6 : FVec F S16x1x512 .f32) (main_arg7 : IVec S16x1x512 32) : IVec S_ 1 :=
  let main_v0 : FVec F S16x512x256 .f32 := Host.absf main_arg0
  let main_cst : FVec F S_ .f32 := constant S_ .f32 0x7F800000#32
  let main_v1 : FVec F S16x512x256 .f32 := broadcastInDim S16x512x256 ![] bcast_S_S16x512x256 main_cst
  let main_v2 : IVec S16x512x256 1 := cmpf .olt main_v0 main_v1
  let main_c : IVec S_ 1 := constantI S_ 1 1#1
  let main_v3 : IVec S_ 1 := (fun x v => Host.reduce IntOp.andi x v reducesTo_S16x512x256_S_d0_1_2 h_S_) main_v2 main_c
  let main_v4 : FVec F S16x1x512 .f32 := Host.absf main_arg2
  let main_cst_0 : FVec F S_ .f32 := constant S_ .f32 0x7F800000#32
  let main_v5 : FVec F S16x1x512 .f32 := broadcastInDim S16x1x512 ![] bcast_S_S16x1x512 main_cst_0
  let main_v6 : IVec S16x1x512 1 := cmpf .olt main_v4 main_v5
  let main_c_1 : IVec S_ 1 := constantI S_ 1 1#1
  let main_v7 : IVec S_ 1 := (fun x v => Host.reduce IntOp.andi x v reducesTo_S16x1x512_S_d0_1_2 h_S_) main_v6 main_c_1
  let main_v8 : IVec S_ 1 := andi main_v3 main_v7
  let main_v9 : FVec F S16x80x2048 .f32 := Host.absf main_arg3
  let main_cst_2 : FVec F S_ .f32 := constant S_ .f32 0x7F800000#32
  let main_v10 : FVec F S16x80x2048 .f32 := broadcastInDim S16x80x2048 ![] bcast_S_S16x80x2048 main_cst_2
  let main_v11 : IVec S16x80x2048 1 := cmpf .olt main_v9 main_v10
  let main_c_3 : IVec S_ 1 := constantI S_ 1 1#1
  let main_v12 : IVec S_ 1 := (fun x v => Host.reduce IntOp.andi x v reducesTo_S16x80x2048_S_d0_1_2 h_S_) main_v11 main_c_3
  let main_v13 : IVec S_ 1 := andi main_v8 main_v12
  let main_v14 : FVec F S16x1x2048 .f32 := Host.absf main_arg5
  let main_cst_4 : FVec F S_ .f32 := constant S_ .f32 0x7F800000#32
  let main_v15 : FVec F S16x1x2048 .f32 := broadcastInDim S16x1x2048 ![] bcast_S_S16x1x2048 main_cst_4
  let main_v16 : IVec S16x1x2048 1 := cmpf .olt main_v14 main_v15
  fn_part1 (F := F) main_arg6 main_arg7 main_v13 main_v16
-- ==== Kernel.lean ====
abbrev S16x512x256 : Shape := ⟨3, ![16, 512, 256]⟩
abbrev S16 : Shape := ⟨1, ![16]⟩
abbrev S16x1x512 : Shape := ⟨3, ![16, 1, 512]⟩
abbrev S16x80x2048 : Shape := ⟨3, ![16, 80, 2048]⟩
abbrev S16x1x2048 : Shape := ⟨3, ![16, 1, 2048]⟩
abbrev S16x512 : Shape := ⟨2, ![16, 512]⟩
abbrev S_ : Shape := ⟨0, ![]⟩
abbrev S16x512x1 : Shape := ⟨3, ![16, 512, 1]⟩
abbrev S16x512x2 : Shape := ⟨3, ![16, 512, 2]⟩
abbrev S16x2048x256 : Shape := ⟨3, ![16, 2048, 256]⟩
abbrev S16x512x2048 : Shape := ⟨3, ![16, 512, 2048]⟩
abbrev S1x512x256 : Shape := ⟨3, ![1, 512, 256]⟩
abbrev S1x512x2 : Shape := ⟨3, ![1, 512, 2]⟩
abbrev S1x512x1 : Shape := ⟨3, ![1, 512, 1]⟩
abbrev S1x1x2048 : Shape := ⟨3, ![1, 1, 2048]⟩
abbrev S1x2048x256 : Shape := ⟨3, ![1, 2048, 256]⟩
abbrev S1x512x2048 : Shape := ⟨3, ![1, 512, 2048]⟩
abbrev S1x2048 : Shape := ⟨2, ![1, 2048]⟩
abbrev S512x1 : Shape := ⟨2, ![512, 1]⟩
abbrev S512x2048 : Shape := ⟨2, ![512, 2048]⟩
abbrev S512x256 : Shape := ⟨2, ![512, 256]⟩
abbrev S2048x256 : Shape := ⟨2, ![2048, 256]⟩

abbrev nBuf : Space → Nat
  | .hbm => 20
  | .vmem => 12
  | .smem => 0
  | _ => 0

abbrev bufTy : (tb : Table) → Fin (tcTables nBuf tb) → BufTy
  | .hbm, ⟨0, _⟩ => ⟨S16x512x256, .f32⟩
  | .hbm, ⟨1, _⟩ => ⟨S16, .i32⟩
  | .hbm, ⟨2, _⟩ => ⟨S16x1x512, .f32⟩
  | .hbm, ⟨3, _⟩ => ⟨S16x80x2048, .f32⟩
  | .hbm, ⟨4, _⟩ => ⟨S16, .i32⟩
  | .hbm, ⟨5, _⟩ => ⟨S16x1x2048, .f32⟩
  | .hbm, ⟨6, _⟩ => ⟨S16x1x512, .f32⟩
  | .hbm, ⟨7, _⟩ => ⟨S16x1x512, .i32⟩
  | .hbm, ⟨8, _⟩ => ⟨S16x512, .i32⟩
  | .hbm, ⟨9, _⟩ => ⟨S_, .i32⟩
  | .hbm, ⟨10, _⟩ => ⟨S_, .i32⟩
  | .hbm, ⟨11, _⟩ => ⟨S16x512, .i32⟩
  | .hbm, ⟨12, _⟩ => ⟨S16x512, .i32⟩
  | .hbm, ⟨13, _⟩ => ⟨S16x512x1, .i32⟩
  | .hbm, ⟨14, _⟩ => ⟨S16x512x1, .i32⟩
  | .hbm, ⟨15, _⟩ => ⟨S16x512x2, .i32⟩
  | .hbm, ⟨16, _⟩ => ⟨S16x512, .f32⟩
  | .hbm, ⟨17, _⟩ => ⟨S16x512x1, .f32⟩
  | .hbm, ⟨18, _⟩ => ⟨S16x2048x256, .f32⟩
  | .hbm, ⟨19, _⟩ => ⟨S16x512x2048, .f32⟩
  | .local _ .vmem, ⟨0, _⟩ => ⟨S1x512x256, .f32⟩
  | .local _ .vmem, ⟨1, _⟩ => ⟨S1x512x256, .f32⟩
  | .local _ .vmem, ⟨2, _⟩ => ⟨S1x512x2, .i32⟩
  | .local _ .vmem, ⟨3, _⟩ => ⟨S1x512x2, .i32⟩
  | .local _ .vmem, ⟨4, _⟩ => ⟨S1x512x1, .f32⟩
  | .local _ .vmem, ⟨5, _⟩ => ⟨S1x512x1, .f32⟩
  | .local _ .vmem, ⟨6, _⟩ => ⟨S1x1x2048, .f32⟩
  | .local _ .vmem, ⟨7, _⟩ => ⟨S1x1x2048, .f32⟩
  | .local _ .vmem, ⟨8, _⟩ => ⟨S1x2048x256, .f32⟩
  | .local _ .vmem, ⟨9, _⟩ => ⟨S1x2048x256, .f32⟩
  | .local _ .vmem, ⟨10, _⟩ => ⟨S1x512x2048, .f32⟩
  | .local _ .vmem, ⟨11, _⟩ => ⟨S1x512x2048, .f32⟩
  | _, _ => ⟨S16x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_call0_c : Ref sig .tc := ⟨.hbm, 9, rfl⟩
abbrev main_call0_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x2 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16x1x512_S16x512 : S16x1x512.ShapeCasts S16x512
  bcast_S_S_ : S_.BroadcastsInDim S_ (![] : Fin 0 → Fin S_.rank)
  reduceWindows_S16x512_S16x512_w1s1p0_0_w512s1p511_0 : S16x512.ReduceWindows (![1, 512] : Fin 2 → Nat) ![1, 1] ![0, 511] ![0, 0] S16x512
  h_S_ : 0 < S_.numel
  bcast_S16x512_S16x512x1_0_1 : S16x512.BroadcastsInDim S16x512x1 (![0, 1] : Fin 2 → Fin S16x512x1.rank)
  concatenates_S16x512x1_S16x512x1_S16x512x2_d2 : Shape.Concatenates [S16x512x1, S16x512x1] S16x512x2 2
  shapeCasts_S16x512_S16x512x1 : S16x512.ShapeCasts S16x512x1
  iota_S1x2048_d1_w32 : S1x2048.Iotas .tc 32 [1]
  inb_S1x512x2_S1x512x1_0_0_0 : ∀ a, (![0, 0, 0] : Fin 3 → Nat) a + S1x512x1.size a ≤ S1x512x2.size a
  h_S1x512x1 : 0 < S1x512x1.numel
  shapeCasts_S1x512x1_S512x1 : S1x512x1.ShapeCasts S512x1
  inb_S1x512x2_S1x512x1_0_0_1 : ∀ a, (![0, 0, 1] : Fin 3 → Nat) a + S1x512x1.size a ≤ S1x512x2.size a
  broadcasts_S1x2048_S512x2048 : S1x2048.Broadcasts S512x2048
  broadcasts_S512x1_S512x2048 : S512x1.Broadcasts S512x2048
  natLt_1_32 : 1 < 32
  inb_S1x512x1_S1x512x1_0_0_0 : ∀ a, (![0, 0, 0] : Fin 3 → Nat) a + S1x512x1.size a ≤ S1x512x1.size a
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  bitsLt_bf16_f32 : FTy.bits .bf16 < FTy.bits .f32
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S2048x256_S1x2048x256 : S2048x256.ShapeCasts S1x2048x256
  dot_S512x2048_S512x256_S2048x256_0_0_1_1_n_n_wf : DotDims.WF S512x2048 S512x256 S2048x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S16x512x256.size a
  hwx0_0 : ∀ i : grid0.Coords, EltTy.bits .f32 = 32 ∨ (Rect.block (s := S16x512x256) S1x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2.size a ≤ S16x512x2.size a
  hwx0_1 : ∀ i : grid0.Coords, EltTy.bits .i32 = 32 ∨ (Rect.block (s := S16x512x2) S1x512x2.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S16x512x1.size a
  hwx0_2 : ∀ i : grid0.Coords, EltTy.bits .f32 = 32 ∨ (Rect.block (s := S16x512x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S16x1x2048.size a
  hwx0_3 : ∀ i : grid0.Coords, EltTy.bits .f32 = 32 ∨ (Rect.block (s := S16x1x2048) S1x1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x256.size a ≤ S16x2048x256.size a
  hwx0_4 : ∀ i : grid0.Coords, EltTy.bits .f32 = 32 ∨ (Rect.block (s := S16x2048x256) S1x2048x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S16x512x2048.size a
  hwx0_5 : ∀ i : grid0.Coords, EltTy.bits .f32 = 32 ∨ (Rect.block (s := S16x512x2048) S1x512x2048.size (cc0_transform_5 i) (hinb0_5 i)).WholeWords (EltTy.packing .f32)

variable [Facts₀]

def dot_S512x2048_S512x256_S2048x256_0_0_1_1_n_n : DotDims S512x2048 S512x256 S2048x256 where
  lhsContracting := [0]
  rhsContracting := [0]
  lhsNonContracting := [1]
  rhsNonContracting := [1]
  lhsBatch := []
  rhsBatch := []
  wf := dot_S512x2048_S512x256_S2048x256_0_0_1_1_n_n_wf

abbrev win0_0 : Pipeline.Window sig grid0 :=
  Pipeline.Window.ofSpec (Memref.whole main_arg0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x512x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_0) S1x2048x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_1) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x512x256 : Shape := ⟨3, ![16, 512, 256]⟩
abbrev S16 : Shape := ⟨1, ![16]⟩
abbrev S16x1x512 : Shape := ⟨3, ![16, 1, 512]⟩
abbrev S16x80x2048 : Shape := ⟨3, ![16, 80, 2048]⟩
abbrev S16x1x2048 : Shape := ⟨3, ![16, 1, 2048]⟩
abbrev S16x1x512x1 : Shape := ⟨4, ![16, 1, 512, 1]⟩
abbrev S16x1x1x2048 : Shape := ⟨4, ![16, 1, 1, 2048]⟩
abbrev S16x1x512x2048 : Shape := ⟨4, ![16, 1, 512, 2048]⟩
abbrev S16x512x2048 : Shape := ⟨3, ![16, 512, 2048]⟩
abbrev S16x512 : Shape := ⟨2, ![16, 512]⟩
abbrev S_ : Shape := ⟨0, ![]⟩
abbrev S2048 : Shape := ⟨1, ![2048]⟩
abbrev S1x1x2048 : Shape := ⟨3, ![1, 1, 2048]⟩
abbrev S16x512x1 : Shape := ⟨3, ![16, 512, 1]⟩
abbrev S16x513x2048 : Shape := ⟨3, ![16, 513, 2048]⟩
abbrev S16x2048x256 : Shape := ⟨3, ![16, 2048, 256]⟩

abbrev nBuf : Space → Nat
  | .hbm => 32
  | .vmem => 0
  | .smem => 0
  | _ => 0

abbrev bufTy : (tb : Table) → Fin (tcTables nBuf tb) → BufTy
  | .hbm, ⟨0, _⟩ => ⟨S16x512x256, .f32⟩
  | .hbm, ⟨1, _⟩ => ⟨S16, .i32⟩
  | .hbm, ⟨2, _⟩ => ⟨S16x1x512, .f32⟩
  | .hbm, ⟨3, _⟩ => ⟨S16x80x2048, .f32⟩
  | .hbm, ⟨4, _⟩ => ⟨S16, .i32⟩
  | .hbm, ⟨5, _⟩ => ⟨S16x1x2048, .f32⟩
  | .hbm, ⟨6, _⟩ => ⟨S16x1x512, .f32⟩
  | .hbm, ⟨7, _⟩ => ⟨S16x1x512, .i32⟩
  | .hbm, ⟨8, _⟩ => ⟨S16x1x512x1, .f32⟩
  | .hbm, ⟨9, _⟩ => ⟨S16x1x1x2048, .f32⟩
  | .hbm, ⟨10, _⟩ => ⟨S16x1x512x2048, .f32⟩
  | .hbm, ⟨11, _⟩ => ⟨S16x1x512x2048, .f32⟩
  | .hbm, ⟨12, _⟩ => ⟨S16x1x512x2048, .f32⟩
  | .hbm, ⟨13, _⟩ => ⟨S16x512x2048, .f32⟩
  | .hbm, ⟨14, _⟩ => ⟨S16x512, .i32⟩
  | .hbm, ⟨15, _⟩ => ⟨S_, .i32⟩
  | .hbm, ⟨16, _⟩ => ⟨S_, .i32⟩
  | .hbm, ⟨17, _⟩ => ⟨S16x512, .i32⟩
  | .hbm, ⟨18, _⟩ => ⟨S2048, .i32⟩
  | .hbm, ⟨19, _⟩ => ⟨S1x1x2048, .i32⟩
  | .hbm, ⟨20, _⟩ => ⟨S16x512x1, .i32⟩
  | .hbm, ⟨21, _⟩ => ⟨S16x512x2048, .i32⟩
  | .hbm, ⟨22, _⟩ => ⟨S16x512x2048, .i32⟩
  | .hbm, ⟨23, _⟩ => ⟨S16x512x2048, .i1⟩
  | .hbm, ⟨24, _⟩ => ⟨S16x512x2048, .f32⟩
  | .hbm, ⟨25, _⟩ => ⟨S_, .i32⟩
  | .hbm, ⟨26, _⟩ => ⟨S_, .f32⟩
  | .hbm, ⟨27, _⟩ => ⟨S16x513x2048, .f32⟩
  | .hbm, ⟨28, _⟩ => ⟨S16x512x2048, .f32⟩
  | .hbm, ⟨29, _⟩ => ⟨S16x512x2048, .f32⟩
  | .hbm, ⟨30, _⟩ => ⟨S16x512x2048, .f32⟩
  | .hbm, ⟨31, _⟩ => ⟨S16x2048x256, .f32⟩
  | _, _ => ⟨S16x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_call0_c : Ref sig .tc := ⟨.hbm, 15, rfl⟩
abbrev main_call0_call0_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_call1_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]

class Facts₀ : Prop where
  bcast_S16x1x512_S16x1x512x1_0_1_2 : S16x1x512.BroadcastsInDim S16x1x512x1 (![0, 1, 2] : Fin 3 → Fin S16x1x512x1.rank)
  bcast_S16x1x2048_S16x1x1x2048_0_1_3 : S16x1x2048.BroadcastsInDim S16x1x1x2048 (![0, 1, 3] : Fin 3 → Fin S16x1x1x2048.rank)
  bcast_S16x1x512x1_S16x1x512x2048_0_1_2_3 : S16x1x512x1.BroadcastsInDim S16x1x512x2048 (![0, 1, 2, 3] : Fin 4 → Fin S16x1x512x2048.rank)
  bcast_S16x1x1x2048_S16x1x512x2048_0_1_2_3 : S16x1x1x2048.BroadcastsInDim S16x1x512x2048 (![0, 1, 2, 3] : Fin 4 → Fin S16x1x512x2048.rank)
  shapeCasts_S16x1x512x2048_S16x512x2048 : S16x1x512x2048.ShapeCasts S16x512x2048
  shapeCasts_S16x1x512_S16x512 : S16x1x512.ShapeCasts S16x512
  bcast_S_S_ : S_.BroadcastsInDim S_ (![] : Fin 0 → Fin S_.rank)
  reduceWindows_S16x512_S16x512_w1s1p0_0_w512s1p511_0 : S16x512.ReduceWindows (![1, 512] : Fin 2 → Nat) ![1, 1] ![0, 511] ![0, 0] S16x512
  h_S_ : 0 < S_.numel
  bcast_S2048_S1x1x2048_2 : S2048.BroadcastsInDim S1x1x2048 (![2] : Fin 1 → Fin S1x1x2048.rank)
  bcast_S16x512_S16x512x1_0_1 : S16x512.BroadcastsInDim S16x512x1 (![0, 1] : Fin 2 → Fin S16x512x1.rank)
  bcast_S1x1x2048_S16x512x2048_0_1_2 : S1x1x2048.BroadcastsInDim S16x512x2048 (![0, 1, 2] : Fin 3 → Fin S16x512x2048.rank)
  bcast_S16x512x1_S16x512x2048_0_1_2 : S16x512x1.BroadcastsInDim S16x512x2048 (![0, 1, 2] : Fin 3 → Fin S16x512x2048.rank)
  pads_S16x512x2048_S16x513x2048_000_100_000 : S16x512x2048.Pads (![0, 1, 0] : Fin 3 → Nat) ![0, 0, 0] ![0, 0, 0] S16x513x2048
  slices_S16x513x2048_S16x512x2048_0_0_0 : S16x513x2048.Slices ![0, 0, 0] S16x512x2048
  dot_S16x512x2048_S16x512x256_S16x2048x256_1_1_2_2_0_0_wf : DotDims.WF S16x512x2048 S16x512x256 S16x2048x256 [1] [1] [2] [2] [0] [0]

variable [Facts₀]

def dot_S16x512x2048_S16x512x256_S16x2048x256_1_1_2_2_0_0 : DotDims S16x512x2048 S16x512x256 S16x2048x256 where
  lhsContracting := [1]
  rhsContracting := [1]
  lhsNonContracting := [2]
  rhsNonContracting := [2]
  lhsBatch := [0]
  rhsBatch := [0]
  wf := dot_S16x512x2048_S16x512x256_S16x2048x256_1_1_2_2_0_0_wf

class Facts : Prop extends Facts₀ where

variable [Facts]
-- ==== Proof.LibColumnOps.lean ====
/-
  Operations along the FIRST axis of a matrix, read at an index given by coordinates, at the exact extended reals, for
  any extents — the column-wise companions of the row-wise readings:

    * `lift_col`: over column `k`, the source index whose coordinate on the reduced (first) axis is `t` is `(t, k)`.
    * `multiReduction_add_col`: a `vector.multi_reduction <add>` along the FIRST axis of an `[n, K]` array, at column
      `k`, is `Σ_t src (t, k)`.
    * `matmulTN_zero_apply`: the matrix unit's product of `l : [T, M]` and `r : [T, N]` contracting the FIRST axis of
      both (columns against columns: `lᵀ · r`) into a zero accumulator is, at `(p, q)`, `Σ_t l[t, p] · r[t, q]`.  The
      four coordinate facts of the dimension numbers are hypotheses, read off a program's literal record.
    * `broadcastTo_11_ab_apply`: a `[1, 1]` value broadcast to `[a, b]` reads its one entry everywhere.
-/
import Idealize.ShloMosaic.PureOps.Ideal.Laws
import Idealize.ShloMosaic.Lib.ValueIdx
import Idealize.ShloMosaic.Lib.Pipeline.Value

noncomputable section

namespace Cert.Lib.ColumnOps

open Idealize.ShloMosaic Idealize.ShloMosaic.ValueIdx

/-- Over column `k`, the source index whose coordinate on the reduced (first) axis is `t` is `(t, k)`. -/
theorem lift_col {n K : ℕ} (h : Shape.Reduces ⟨2, ![n, K]⟩ [0] ⟨1, ![K]⟩) (k : Fin K) (t : Fin n) :
    h.lift (ix1 k) t = ix2 t k := by
  funext c
  apply Fin.ext
  match c with
  | ⟨0, _⟩ => rfl
  | ⟨1, _⟩ => rfl

/-- A `vector.multi_reduction <add>` along the first axis, at column `k`: the sum of the column's entries. -/
theorem multiReduction_add_col {n K : ℕ} {φ : FTy} (src : FVec Ideal ⟨2, ![n, K]⟩ φ) (acc : BitVec φ.bits)
    (h : Shape.Reduces ⟨2, ![n, K]⟩ [0] ⟨1, ![K]⟩) (hφ : FKind.Formats φ) (hacc : acc = FKind.add.neutral φ hφ) (k : Fin K) :
    multiReduction .add [0] ⟨1, ![K]⟩ src acc h hφ hacc (ix1 k) = ∑ t : Fin n, src (ix2 t k) := by
  refine (Ideal.multiReduction_add_single src acc h hφ hacc (ix1 k)).trans ?_
  show (∑ t : Fin n, src (h.lift (ix1 k) t)) = _
  exact Finset.sum_congr rfl fun t _ => congrArg src (lift_col h k t)

/-- The sum over a one-axis contraction index is the sum over its one coordinate, for a product that contracts the
    first axis of both operands. -/
theorem contr_sum_tn {T M N : Nat} (d : DotDims ⟨2, ![T, M]⟩ ⟨2, ![T, N]⟩ ⟨2, ![M, N]⟩)
    (hr : d.contr.rank = 1) (hs : d.contr.size ⟨0, by omega⟩ = T)
    (hl0 : ∀ (i : (⟨2, ![M, N]⟩ : Shape).Idx) (q : d.contr.Idx), (d.lhsIdx i q 0).val = (q ⟨0, by omega⟩).val)
    (hl1 : ∀ (i : (⟨2, ![M, N]⟩ : Shape).Idx) (q : d.contr.Idx), (d.lhsIdx i q 1).val = (i 0).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![T, M]⟩ : Shape).Idx → EReal) (r : (⟨2, ![T, N]⟩ : Shape).Idx → EReal) (p : Fin M) (q : Fin N) :
    (∑ k : d.contr.Idx, l (d.lhsIdx (ix2 p q) k) * r (d.rhsIdx (ix2 p q) k)) = ∑ t : Fin T, l (ix2 t p) * r (ix2 t q) := by
  rw [← Equiv.sum_comp (contrEquiv1 d T hr hs).symm]
  refine Finset.sum_congr rfl fun t _ => ?_
  have ht := contrEquiv1_symm_val d T hr hs t
  have el : d.lhsIdx (ix2 p q) ((contrEquiv1 d T hr hs).symm t) = ix2 t p := funext fun a => Fin.ext (by
    match a with
    | ⟨0, _⟩ => exact (hl0 _ _).trans ht
    | ⟨1, _⟩ => exact hl1 _ _)
  have er : d.rhsIdx (ix2 p q) ((contrEquiv1 d T hr hs).symm t) = ix2 t q := funext fun a => Fin.ext (by
    match a with
    | ⟨0, _⟩ => exact (hr0 _ _).trans ht
    | ⟨1, _⟩ => exact hr1 _ _)
  rw [el, er]

/-- The matrix unit's product contracting the first axis of both operands, into a zero accumulator, read at `(p, q)`. -/
theorem matmulTN_zero_apply {T M N : Nat} {φ₁ φ₂ : FTy} (d : DotDims ⟨2, ![T, M]⟩ ⟨2, ![T, N]⟩ ⟨2, ![M, N]⟩)
    (prec : Option ContractPrecision)
    (hr : d.contr.rank = 1) (hs : d.contr.size ⟨0, by omega⟩ = T)
    (hl0 : ∀ (i : (⟨2, ![M, N]⟩ : Shape).Idx) (q : d.contr.Idx), (d.lhsIdx i q 0).val = (q ⟨0, by omega⟩).val)
    (hl1 : ∀ (i : (⟨2, ![M, N]⟩ : Shape).Idx) (q : d.contr.Idx), (d.lhsIdx i q 1).val = (i 0).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : FVec Ideal ⟨2, ![T, M]⟩ φ₁) (r : FVec Ideal ⟨2, ![T, N]⟩ φ₂) (p : Fin M) (q : Fin N) :
    matmul d prec l r (constant (F := Ideal) ⟨2, ![M, N]⟩ .f32 0x00000000#32) (ix2 p q)
      = ∑ t : Fin T, l (ix2 t p) * r (ix2 t q) := by
  exact (Ideal.matmul_constant_zero_apply d prec l r (ix2 p q)).trans (contr_sum_tn d hr hs hl0 hl1 hr0 hr1 l r p q)

/-- A `[1, 1]` value broadcast to `[a, b]` reads its one entry at every `(i, c)`. -/
theorem broadcastTo_11_ab_apply {α : Type} {a b : ℕ} (v : (⟨2, ![1, 1]⟩ : Shape).Idx → α) (h : (⟨2, ![1, 1]⟩ : Shape).Broadcasts ⟨2, ![a, b]⟩)
    (i : Fin a) (c : Fin b) : broadcastTo ⟨2, ![a, b]⟩ v h (ix2 i c) = v (ix2 (0 : Fin 1) (0 : Fin 1)) := by
  refine broadcastTo_apply v h (ix2 i c) (ix2 (0 : Fin 1) (0 : Fin 1)) fun ax => ?_
  match ax with
  | ⟨0, _⟩ => rfl
  | ⟨1, _⟩ => rfl

end Cert.Lib.ColumnOps

end
-- ==== Proof.LibKeepdimsColumn.lean ====
/-
  The keepdims COLUMN forms of two layout operations, read at an index given by coordinates: what a sum over the last
  axis with the reduced axis kept (a column of per-row values) needs when the column is built from a vector and then
  spread over the columns of a matrix.
    * `shapeCast_a_a1_apply`: an `[a]` vector cast to an `[a, 1]` column reads, at `(i, u)`, the vector at `i`.
    * `broadcastTo_a1_ab_apply`: an `[a, 1]` column broadcast to `[a, b]` reads, at `(i, c)`, the column at `(i, 0)`.
  Both are the library's general read-at-an-index lemmas with the coordinate arithmetic done once, for any extents.
-/
import Idealize.ShloMosaic.Lib.Pipeline.Value
import Idealize.ShloMosaic.Lib.ValueIdx

namespace Cert.Lib.KeepdimsColumn

open Idealize.ShloMosaic Idealize.ShloMosaic.ValueIdx

variable {α : Type}

/-- An `[a]` vector cast to an `[a, 1]` column reads, at `(i, u)`, the vector at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, c)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

end Cert.Lib.KeepdimsColumn
-- ==== Proof.KernelPay.lean ====
/-
  The kernel body's arithmetic read at an index, at the exact extended reals.

  The body builds, for phoneme row `i` and frame `j`, the 0/1 word "cp i ≤ j < cc i" (two signed
  comparisons of the frame number against the row's two bounds, and-ed), converts it to a number,
  and multiplies by the row's mask entry and then by the frame's mask entry: one entry of the
  alignment matrix.  The second output is the product of the transposed alignment block with the
  feature block on the matrix unit, into a zero accumulator: entry `(j, d)` is the sum over the
  rows `i` of alignment `(i, j)` times feature `(i, d)`.
-/
import proofs.«143569_j57878979281201_2_alg».proof.Proof.Gen.KernelIdeal.Skeleton
import proofs.«143569_j57878979281201_2_alg».proof.Proof.LibColumnOps
import proofs.«143569_j57878979281201_2_alg».proof.Proof.LibKeepdimsColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.Lib.ColumnOps Cert.Lib.KeepdimsColumn

/-- The 0/1 word of "the frame number `j` lies in the half-open signed interval from `cp` to `cc`". -/
def pathWord (cp cc : BitVec 32) (j : ℕ) : BitVec 1 :=
  IntOp.andi (IntOp.cmpi .sge (BitVec.ofNat 32 j) cp) (IntOp.cmpi .slt (BitVec.ofNat 32 j) cc)

/-- The frame counter broadcast over the rows reads the frame number. -/
theorem frame_apply (i : Fin 512) (j : Fin 2048) :
    broadcastTo S512x2048 (iota .tc S1x2048 32 [1] iota_S1x2048_d1_w32) broadcasts_S1x2048_S512x2048 (ix2 i j)
      = BitVec.ofNat 32 j.val := by
  rw [broadcastTo_1b_ab_apply]
  show BitVec.ofNat 32 (0 * 2048 + j.val) = _
  rw [Nat.zero_mul, Nat.zero_add]

/-- A per-row column (loaded as a `[1, 512, 1]` block) broadcast over the frames reads the row's entry. -/
theorem col_apply {α : Type} (v : S1x512x1.Idx → α) (i : Fin 512) (j : Fin 2048) :
    broadcastTo S512x2048 (shapeCast S512x1 v shapeCasts_S1x512x1_S512x1) broadcasts_S512x1_S512x2048 (ix2 i j)
      = v (ix3 (0 : Fin 1) i (0 : Fin 1)) := by
  rw [broadcastTo_a1_ab_apply, shapeCast_1ab_ab_apply]

/-- The per-frame row (loaded as a `[1, 1, 2048]` block) broadcast over the rows reads the frame's entry. -/
theorem row_apply {α : Type} (v : S1x1x2048.Idx → α) (i : Fin 512) (j : Fin 2048) :
    broadcastTo S512x2048 (shapeCast S1x2048 v shapeCasts_S1x1x2048_S1x2048) broadcasts_S1x2048_S512x2048 (ix2 i j)
      = v (ix3 (0 : Fin 1) (0 : Fin 1) j) := by
  rw [broadcastTo_1b_ab_apply, shapeCast_1ab_ab_apply]

/-- One entry of the alignment block: the interval word as a number, times the row mask, times the frame mask. -/
theorem pay1_apply (v1 v3 : Vec Ideal S1x512x1 .i32) (v14 : Vec Ideal S1x512x1 .f32) (v18 : Vec Ideal S1x1x2048 .f32)
    (i : Fin 512) (j : Fin 2048) :
    k0_pay1 (F := Ideal) v1 v3 v14 v18 (ix2 i j)
      = ((((pathWord (v1 (ix3 (0 : Fin 1) i (0 : Fin 1))) (v3 (ix3 (0 : Fin 1) i (0 : Fin 1))) j.val).setWidth 32).toInt : ℝ) : EReal)
          * v14 (ix3 (0 : Fin 1) i (0 : Fin 1)) * v18 (ix3 (0 : Fin 1) (0 : Fin 1) j) := by
  unfold k0_pay1 pathWord
  show ((((IntOp.andi
        (IntOp.cmpi .sge (broadcastTo S512x2048 (iota .tc S1x2048 32 [1] iota_S1x2048_d1_w32) broadcasts_S1x2048_S512x2048 (ix2 i j))
          (broadcastTo S512x2048 (shapeCast S512x1 v1 shapeCasts_S1x512x1_S512x1) broadcasts_S512x1_S512x2048 (ix2 i j)))
        (IntOp.cmpi .slt (broadcastTo S512x2048 (iota .tc S1x2048 32 [1] iota_S1x2048_d1_w32) broadcasts_S1x2048_S512x2048 (ix2 i j))
          (broadcastTo S512x2048 (shapeCast S512x1 v3 shapeCasts_S1x512x1_S512x1) broadcasts_S512x1_S512x2048 (ix2 i j)))).setWidth 32).toInt : ℝ) : EReal)
      * (broadcastTo S512x2048 (shapeCast S512x1 v14 shapeCasts_S1x512x1_S512x1) broadcasts_S512x1_S512x2048 (ix2 i j))
      * (broadcastTo S512x2048 (shapeCast S1x2048 v18 shapeCasts_S1x1x2048_S1x2048) broadcasts_S1x2048_S512x2048 (ix2 i j)) = _
  rw [frame_apply, col_apply, col_apply, col_apply, row_apply]

/-- The alignment block stored with its leading unit axis. -/
theorem pay2_apply (v1 v3 : Vec Ideal S1x512x1 .i32) (v14 : Vec Ideal S1x512x1 .f32) (v18 : Vec Ideal S1x1x2048 .f32)
    (u : Fin 1) (i : Fin 512) (j : Fin 2048) :
    k0_pay2 (F := Ideal) v1 v3 v14 v18 (ix3 u i j) = k0_pay1 (F := Ideal) v1 v3 v14 v18 (ix2 i j) := by
  unfold k0_pay2
  exact shapeCast_ab_1ab_apply _ _ u i j

/-- One entry of the expanded features: the sum over the rows of alignment times feature. -/
theorem pay3_apply (v1 v3 : Vec Ideal S1x512x1 .i32) (v14 : Vec Ideal S1x512x1 .f32) (v18 : Vec Ideal S1x1x2048 .f32)
    (v25 : Vec Ideal S1x512x256 .f32) (u : Fin 1) (j : Fin 2048) (d : Fin 256) :
    k0_pay3 (F := Ideal) v1 v3 v14 v18 v25 (ix3 u j d)
      = ∑ i : Fin 512, k0_pay1 (F := Ideal) v1 v3 v14 v18 (ix2 i j) * v25 (ix3 (0 : Fin 1) i d) := by
  unfold k0_pay3
  refine (shapeCast_ab_1ab_apply _ _ u j d).trans ?_
  refine (matmulTN_zero_apply dot_S512x2048_S512x256_S2048x256_0_0_1_1_n_n none rfl rfl
    (fun _ _ => rfl) (fun _ _ => rfl) (fun _ _ => rfl) (fun _ _ => rfl) _ _ j d).trans ?_
  refine Finset.sum_congr rfl fun i _ => ?_
  show k0_pay1 (F := Ideal) v1 v3 v14 v18 (ix2 i j) * (shapeCast S512x256 v25 shapeCasts_S1x512x256_S512x256 (ix2 i d)) = _
  rw [shapeCast_1ab_ab_apply]

end Cert.KernelIdeal.Pay

end
-- ==== Proof.KernelValue.lean ====
/-
  The kernel's two result arrays as whole-array functions of the arrays the kernel finds.

  Grid point `t` handles batch entry `t`: every window's block at `t` is the slab `t` of its array
  (block index `(t, 0, 0)`).  So the alignment array ends holding, at `(b, i, j)`, the interval word of
  row `(b, i)`'s two bounds at frame `j` times the two masks; and the expanded features at
  `(b, j, d)` the sum over the rows `i` of that entry times feature `(b, i, d)`.  The sixteen slabs
  cover both result arrays.
-/
import proofs.«143569_j57878979281201_2_alg».proof.Proof.Gen.KernelIdeal.Value
import proofs.«143569_j57878979281201_2_alg».proof.Proof.KernelPay

noncomputable section

namespace Cert.KernelIdeal.KValue

open Cert.KernelIdeal Cert.KernelIdeal.Gen Idealize.ShloMosaic Idealize.ShloMosaic.TcCoe Idealize.SL.Sem Idealize.ShloMosaic.ValueIdx Cert.KernelIdeal.Pay
open Idealize.ShloMosaic.Pipeline (Dat)

theorem hz3 : (![0, 0, 0] : Fin 3 → Nat) = fun _ => 0 := funext fun a => by fin_cases a <;> rfl

/-- One entry of the alignment: the interval word of the row's bounds at the frame, times the row mask, times the frame mask. -/
def attnEntry (B : S16x512x2.Idx → BitVec 32) (XM : S16x512x1.Idx → EReal) (YM : S16x1x2048.Idx → EReal)
    (b : Fin 16) (i : Fin 512) (j : Fin 2048) : EReal :=
  ((((pathWord (B (ix3 b i (0 : Fin 2))) (B (ix3 b i (1 : Fin 2))) j.val).setWidth 32).toInt : ℝ) : EReal)
    * XM (ix3 b i (0 : Fin 1)) * YM (ix3 b (0 : Fin 1) j)

/-- The alignment array. -/
def attnK (B : S16x512x2.Idx → BitVec 32) (XM : S16x512x1.Idx → EReal) (YM : S16x1x2048.Idx → EReal) :
    S16x512x2048.Idx → EReal :=
  fun idx => attnEntry B XM YM (idx 0) (idx 1) (idx 2)

/-- The expanded features: alignment transposed times features, batch by batch. -/
def muK (X : S16x512x256.Idx → EReal) (B : S16x512x2.Idx → BitVec 32) (XM : S16x512x1.Idx → EReal)
    (YM : S16x1x2048.Idx → EReal) : S16x2048x256.Idx → EReal :=
  fun idx => ∑ i : Fin 512, attnEntry B XM YM (idx 0) i (idx 1) * X (ix3 (idx 0) i (idx 2))

/-! ## One point's body, over blocks as variables -/

theorem ld_lo (x1 : Vec Ideal S1x512x2 .i32) (i : Fin 512) :
    View.ld x1 r0_0 (ix3 (0 : Fin 1) i (0 : Fin 1)) = x1 (ix3 (0 : Fin 1) i (0 : Fin 2)) := by
  show x1 (r0_0.emb (ix3 (0 : Fin 1) i (0 : Fin 1))) = _
  refine congrArg x1 (funext fun a => Fin.ext ?_)
  match a with
  | ⟨0, _⟩ => rfl
  | ⟨1, _⟩ => show 0 + 1 * i.val = i.val; omega
  | ⟨2, _⟩ => rfl

theorem ld_hi (x1 : Vec Ideal S1x512x2 .i32) (i : Fin 512) :
    View.ld x1 r0_1 (ix3 (0 : Fin 1) i (0 : Fin 1)) = x1 (ix3 (0 : Fin 1) i (1 : Fin 2)) := by
  show x1 (r0_1.emb (ix3 (0 : Fin 1) i (0 : Fin 1))) = _
  refine congrArg x1 (funext fun a => Fin.ext ?_)
  match a with
  | ⟨0, _⟩ => rfl
  | ⟨1, _⟩ => show 0 + 1 * i.val = i.val; omega
  | ⟨2, _⟩ => rfl

/-- What one point leaves in its alignment block. -/
theorem point5 (x0 : Vec Ideal S1x512x256 .f32) (x1 : Vec Ideal S1x512x2 .i32) (x2 : Vec Ideal S1x512x1 .f32)
    (x3 : Vec Ideal S1x1x2048 .f32) (u : Fin 1) (i : Fin 512) (j : Fin 2048) :
    out0_5 (F := Ideal) x0 x1 x2 x3 (ix3 u i j)
      = ((((pathWord (x1 (ix3 (0 : Fin 1) i (0 : Fin 2))) (x1 (ix3 (0 : Fin 1) i (1 : Fin 2))) j.val).setWidth 32).toInt : ℝ) : EReal)
          * x2 (ix3 (0 : Fin 1) i (0 : Fin 1)) * x3 (ix3 (0 : Fin 1) (0 : Fin 1) j) := by
  unfold out0_5
  rw [View.canon_unit_zero hz3, pay2_apply, pay1_apply, ld_lo, ld_hi,
    View.ld_unit_zero (S := S1x512x1) hz3, View.ld_unit_zero (S := S1x1x2048) hz3]

/-- What one point leaves in its expanded-features block. -/
theorem point4 (x0 : Vec Ideal S1x512x256 .f32) (x1 : Vec Ideal S1x512x2 .i32) (x2 : Vec Ideal S1x512x1 .f32)
    (x3 : Vec Ideal S1x1x2048 .f32) (u : Fin 1) (j : Fin 2048) (d : Fin 256) :
    out0_4 (F := Ideal) x0 x1 x2 x3 (ix3 u j d)
      = ∑ i : Fin 512, (((((pathWord (x1 (ix3 (0 : Fin 1) i (0 : Fin 2))) (x1 (ix3 (0 : Fin 1) i (1 : Fin 2))) j.val).setWidth 32).toInt : ℝ) : EReal)
          * x2 (ix3 (0 : Fin 1) i (0 : Fin 1)) * x3 (ix3 (0 : Fin 1) (0 : Fin 1) j)) * x0 (ix3 (0 : Fin 1) i d) := by
  unfold out0_4
  rw [View.canon_unit_zero hz3, pay3_apply]
  refine Finset.sum_congr rfl fun i _ => ?_
  rw [pay1_apply, ld_lo, ld_hi, View.ld_unit_zero (S := S1x512x1) hz3, View.ld_unit_zero (S := S1x1x2048) hz3,
    View.ld_unit_zero (S := S1x512x256) hz3]

/-! ## The blocks at a point -/

/-- Every window's block index at point `t` is `(t, 0, 0)` (decided over the sixteen points). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0) :=
  (by decide +kernel : ∀ t : Fin grid0.N, _)

variable (m : (ℓ : Loc nD τ sig) → Buf (Elt Ideal) ℓ) (ρ : Dev nD → PrngReg)

theorem blk0 (c : Dev nD) (t : Fin cfg0.N) (ht : t.val < 16) (i : Fin 512) (d : Fin 256) :
    iblk m c 0 t (ix3 (0 : Fin 1) i d) = (V m c main_arg0 : S16x512x256.Idx → EReal) (ix3 ⟨t.val, ht⟩ i d) := by
  show (V m c main_arg0 : S16x512x256.Idx → EReal) (((cfg0.win 0).blk t).view.emb (ix3 (0 : Fin 1) i d)) = _
  obtain ⟨⟨e0, e1, e2⟩, -⟩ := idx_facts t
  refine congrArg _ (funext fun a => Fin.ext ?_)
  match a with
  | ⟨0, _⟩ => show win0_0.index t (0 : Fin 3) * 1 + 1 * 0 = t.val; omega
  | ⟨1, _⟩ => show win0_0.index t (1 : Fin 3) * 512 + 1 * i.val = i.val; omega
  | ⟨2, _⟩ => show win0_0.index t (2 : Fin 3) * 256 + 1 * d.val = d.val; omega

theorem blk1 (c : Dev nD) (t : Fin cfg0.N) (ht : t.val < 16) (i : Fin 512) (k : Fin 2) :
    iblk m c 1 t (ix3 (0 : Fin 1) i k) = (V m c main_v5 : S16x512x2.Idx → BitVec 32) (ix3 ⟨t.val, ht⟩ i k) := by
  show (V m c main_v5 : S16x512x2.Idx → BitVec 32) (((cfg0.win 1).blk t).view.emb (ix3 (0 : Fin 1) i k)) = _
  obtain ⟨-, ⟨e0, e1, e2⟩, -⟩ := idx_facts t
  refine congrArg _ (funext fun a => Fin.ext ?_)
  match a with
  | ⟨0, _⟩ => show win0_1.index t (0 : Fin 3) * 1 + 1 * 0 = t.val; omega
  | ⟨1, _⟩ => show win0_1.index t (1 : Fin 3) * 512 + 1 * i.val = i.val; omega
  | ⟨2, _⟩ => show win0_1.index t (2 : Fin 3) * 2 + 1 * k.val = k.val; omega

theorem blk2 (c : Dev nD) (t : Fin cfg0.N) (ht : t.val < 16) (i : Fin 512) :
    iblk m c 2 t (ix3 (0 : Fin 1) i (0 : Fin 1)) = (V m c main_v7 : S16x512x1.Idx → EReal) (ix3 ⟨t.val, ht⟩ i (0 : Fin 1)) := by
  show (V m c main_v7 : S16x512x1.Idx → EReal) (((cfg0.win 2).blk t).view.emb (ix3 (0 : Fin 1) i (0 : Fin 1))) = _
  obtain ⟨-, -, ⟨e0, e1, e2⟩, -⟩ := idx_facts t
  refine congrArg _ (funext fun a => Fin.ext ?_)
  match a with
  | ⟨0, _⟩ => show win0_2.index t (0 : Fin 3) * 1 + 1 * 0 = t.val; omega
  | ⟨1, _⟩ => show win0_2.index t (1 : Fin 3) * 512 + 1 * i.val = i.val; omega
  | ⟨2, _⟩ => show win0_2.index t (2 : Fin 3) * 1 + 1 * 0 = 0; omega

theorem blk3 (c : Dev nD) (t : Fin cfg0.N) (ht : t.val < 16) (j : Fin 2048) :
    iblk m c 3 t (ix3 (0 : Fin 1) (0 : Fin 1) j) = (V m c main_arg5 : S16x1x2048.Idx → EReal) (ix3 ⟨t.val, ht⟩ (0 : Fin 1) j) := by
  show (V m c main_arg5 : S16x1x2048.Idx → EReal) (((cfg0.win 3).blk t).view.emb (ix3 (0 : Fin 1) (0 : Fin 1) j)) = _
  obtain ⟨-, -, -, ⟨e0, e1, e2⟩, -⟩ := idx_facts t
  refine congrArg _ (funext fun a => Fin.ext ?_)
  match a with
  | ⟨0, _⟩ => show win0_3.index t (0 : Fin 3) * 1 + 1 * 0 = t.val; omega
  | ⟨1, _⟩ => show win0_3.index t (1 : Fin 3) * 1 + 1 * 0 = 0; omega
  | ⟨2, _⟩ => show win0_3.index t (2 : Fin 3) * 2048 + 1 * j.val = j.val; omega

/-! ## What each point writes back, and the whole arrays -/

theorem flushed5_eq (c : Dev nD) (t : Fin cfg0.N) :
    (dats m 0 c).flushed 5 t
      = ((cfg0.win 5).blk t).view.read (Elt Ideal) (attnK (V m c main_v5) (V m c main_v7) (V m c main_arg5)) := by
  rw [Value.flushed5]
  have ht : t.val < 16 := (N_0 : grid0.N = 16) ▸ t.isLt
  obtain ⟨-, -, -, -, -, ⟨e0, e1, e2⟩⟩ := idx_facts t
  refine funext fun (y : S1x512x2048.Idx) => ?_
  obtain ⟨u, i, j, rfl⟩ : ∃ (u : Fin 1) (i : Fin 512) (j : Fin 2048), y = ix3 u i j := ⟨y 0, y 1, y 2, eq_ix3 y⟩
  show out0_5 (iblk m c 0 t) (iblk m c 1 t) (iblk m c 2 t) (iblk m c 3 t) (ix3 u i j)
    = attnK (V m c main_v5) (V m c main_v7) (V m c main_arg5) (((cfg0.win 5).blk t).view.emb (ix3 u i j))
  have e : ((cfg0.win 5).blk t).view.emb (ix3 u i j) = (ix3 ⟨t.val, ht⟩ i j : S16x512x2048.Idx) := by
    refine funext fun a => Fin.ext ?_
    have hu : u.val = 0 := by omega
    match a with
    | ⟨0, _⟩ => show win0_5.index t (0 : Fin 3) * 1 + 1 * u.val = t.val; omega
    | ⟨1, _⟩ => show win0_5.index t (1 : Fin 3) * 512 + 1 * i.val = i.val; omega
    | ⟨2, _⟩ => show win0_5.index t (2 : Fin 3) * 2048 + 1 * j.val = j.val; omega
  rw [e, point5, blk1 m c t ht, blk1 m c t ht, blk2 m c t ht, blk3 m c t ht]
  rfl

theorem flushed4_eq (c : Dev nD) (t : Fin cfg0.N) :
    (dats m 0 c).flushed 4 t
      = ((cfg0.win 4).blk t).view.read (Elt Ideal) (muK (V m c main_arg0) (V m c main_v5) (V m c main_v7) (V m c main_arg5)) := by
  rw [Value.flushed4]
  have ht : t.val < 16 := (N_0 : grid0.N = 16) ▸ t.isLt
  obtain ⟨-, -, -, -, ⟨e0, e1, e2⟩, -⟩ := idx_facts t
  refine funext fun (y : S1x2048x256.Idx) => ?_
  obtain ⟨u, j, d, rfl⟩ : ∃ (u : Fin 1) (j : Fin 2048) (d : Fin 256), y = ix3 u j d := ⟨y 0, y 1, y 2, eq_ix3 y⟩
  show out0_4 (iblk m c 0 t) (iblk m c 1 t) (iblk m c 2 t) (iblk m c 3 t) (ix3 u j d)
    = muK (V m c main_arg0) (V m c main_v5) (V m c main_v7) (V m c main_arg5) (((cfg0.win 4).blk t).view.emb (ix3 u j d))
  have e : ((cfg0.win 4).blk t).view.emb (ix3 u j d) = (ix3 ⟨t.val, ht⟩ j d : S16x2048x256.Idx) := by
    refine funext fun a => Fin.ext ?_
    have hu : u.val = 0 := by omega
    match a with
    | ⟨0, _⟩ => show win0_4.index t (0 : Fin 3) * 1 + 1 * u.val = t.val; omega
    | ⟨1, _⟩ => show win0_4.index t (1 : Fin 3) * 2048 + 1 * j.val = j.val; omega
    | ⟨2, _⟩ => show win0_4.index t (2 : Fin 3) * 256 + 1 * d.val = d.val; omega
  rw [e, point4]
  show _ = ∑ i : Fin 512, attnEntry (V m c main_v5) (V m c main_v7) (V m c main_arg5) ⟨t.val, ht⟩ i j
      * (V m c main_arg0 : S16x512x256.Idx → EReal) (ix3 ⟨t.val, ht⟩ i d)
  refine Finset.sum_congr rfl fun i _ => ?_
  rw [blk1 m c t ht, blk1 m c t ht, blk2 m c t ht, blk3 m c t ht, blk0 m c t ht]
  rfl

theorem mem_blk5 (t : Fin cfg0.N) (i : S16x512x2048.Idx) :
    i ∈ ((cfg0.win 5).blk t).view.set ↔ ∀ a : Fin 3, win0_5.index t a * S1x512x2048.size a ≤ (i a).val
      ∧ (i a).val < win0_5.index t a * S1x512x2048.size a + S1x512x2048.size a := by
  show i ∈ ((View.whole main_v8_1).slice (win0_5.rect t)).set ↔ _
  rw [View.set_slice_whole, Rect.mem_set_unit]
  exact Iff.rfl

theorem mem_blk4 (t : Fin cfg0.N) (i : S16x2048x256.Idx) :
    i ∈ ((cfg0.win 4).blk t).view.set ↔ ∀ a : Fin 3, win0_4.index t a * S1x2048x256.size a ≤ (i a).val
      ∧ (i a).val < win0_4.index t a * S1x2048x256.size a + S1x2048x256.size a := by
  show i ∈ ((View.whole main_v8_0).slice (win0_4.rect t)).set ↔ _
  rw [View.set_slice_whole, Rect.mem_set_unit]
  exact Iff.rfl

theorem cover5 (i : S16x512x2048.Idx) :
    ∃ t : Fin cfg0.N, (cfg0.win 5).flush t = true ∧ i ∈ ((cfg0.win 5).blk t).view.set := by
  have h0 : (i 0).val < 16 := (i 0).isLt
  have h1 : (i 1).val < 512 := (i 1).isLt
  have h2 : (i 2).val < 2048 := (i 2).isLt
  let t : Fin cfg0.N := ⟨(i 0).val, by show (i 0).val < grid0.N; rw [N_0]; exact h0⟩
  obtain ⟨-, -, -, -, -, ⟨e0, e1, e2⟩⟩ := idx_facts t
  have e0' : win0_5.index t (0 : Fin 3) = (i 0).val := e0
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 2048 ≤ (i 2).val ∧ (i 2).val < win0_5.index t (2 : Fin 3) * 2048 + 2048; omega

theorem cover4 (i : S16x2048x256.Idx) :
    ∃ t : Fin cfg0.N, (cfg0.win 4).flush t = true ∧ i ∈ ((cfg0.win 4).blk t).view.set := by
  have h0 : (i 0).val < 16 := (i 0).isLt
  have h1 : (i 1).val < 2048 := (i 1).isLt
  have h2 : (i 2).val < 256 := (i 2).isLt
  let t : Fin cfg0.N := ⟨(i 0).val, by show (i 0).val < grid0.N; rw [N_0]; exact h0⟩
  obtain ⟨-, -, -, -, ⟨e0, e1, e2⟩, -⟩ := idx_facts t
  have e0' : win0_4.index t (0 : Fin 3) = (i 0).val := e0
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 2048 ≤ (i 1).val ∧ (i 1).val < win0_4.index t (1 : Fin 3) * 2048 + 2048; omega
  | ⟨2, _⟩ => show win0_4.index t (2 : Fin 3) * 256 ≤ (i 2).val ∧ (i 2).val < win0_4.index t (2 : Fin 3) * 256 + 256; omega

theorem final5 (c : Dev nD) :
    (dats m 0 c).arrAt 5 cfg0.N = attnK (V m c main_v5) (V m c main_v7) (V m c main_arg5) :=
  (dats m 0 c).arrAt_eq_of_cover 5 _ (fun t _ => flushed5_eq m c t) cover5

theorem final4 (c : Dev nD) :
    (dats m 0 c).arrAt 4 cfg0.N = muK (V m c main_arg0) (V m c main_v5) (V m c main_v7) (V m c main_arg5) :=
  (dats m 0 c).arrAt_eq_of_cover 4 _ (fun t _ => flushed4_eq m c t) cover4

/-- The kernel's run with both result arrays named as functions of the arrays the kernel finds, the arguments unchanged. -/
theorem run : θ_run defs (onTc (τ := τ) (main (F := Ideal))) ⟨m, fun _ => 0, ρ⟩ fun r => ∀ c : Dev nD,
      r.2.mem ((c : Thread nD τ).loc main_v8_0) = muK (V m c main_arg0) (V m c main_v5) (V m c main_v7) (V m c main_arg5)
      ∧ r.2.mem ((c : Thread nD τ).loc main_v8_1) = attnK (V m c main_v5) (V m c main_v7) (V m c main_arg5)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final4 m c), (h c).2.1.trans (final5 m c), (h c).2.2⟩)
    (Value.run_blocks m ρ)

end Cert.KernelIdeal.KValue

end
-- ==== Proof.KernelHost.lean ====
/-
  What the host lines before the kernel leave in its operands.

  The durations `[16, 1, 512]` are re-laid as `[16, 512]`, summed cumulatively along the rows
  (`cums`), and the two bounds of row `i` — the cumulative sum less the row's own duration, and the
  cumulative sum — are laid side by side as the last axis of a `[16, 512, 2]` array.  The row mask
  `[16, 1, 512]` is re-laid as a `[16, 512, 1]` column.  Each is read here at an index.
-/
import proofs.«143569_j57878979281201_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostVals

open Cert.KernelIdeal Cert.KernelIdeal.Gen Idealize.ShloMosaic Idealize.ShloMosaic.TcCoe Idealize.SL.Sem Idealize.ShloMosaic.StableHlo Idealize.ShloMosaic.ValueIdx

variable {F : FTy → Type} [FloatOps F]

/-- The durations as a `[16, 512]` array. -/
def durs (dur : IVec S16x1x512 32) : IVec S16x512 32 :=
  fun i => shapeCast S16x512 dur shapeCasts_S16x1x512_S16x512 i

/-- Their cumulative sums along the rows: a window of 512 positions padded 511 low, summed from zero. -/
def cums (dur : IVec S16x1x512 32) : IVec S16x512 32 :=
  Host.reduceWindow IntOp.addi ![1, 512] ![1, 1] ![0, 511] ![0, 0] (durs dur)
    (broadcastInDim S_ ![] bcast_S_S_ (constantI S_ 32 0#32))
    reduceWindows_S16x512_S16x512_w1s1p0_0_w512s1p511_0 h_S_

theorem durs_apply (dur : IVec S16x1x512 32) (b : Fin 16) (i : Fin 512) :
    durs dur (ix2 b i) = dur (ix3 b (0 : Fin 1) i) := by
  unfold durs
  exact shapeCast_apply _ _ _ _ (by
    rw [Shape.rowMajor_val_three, Shape.rowMajor_val_two]
    show (b.val * 1 + 0) * 512 + i.val = b.val * 512 + i.val
    omega)

/-- Two `[16, 512]` arrays, each made a `[16, 512, 1]` column, laid side by side: entry 0 of the last axis reads the first. -/
theorem pair_lo (lo hi : IVec S16x512 32) (b : Fin 16) (i : Fin 512) :
    concatenate S16x512x2 2 [⟨S16x512x1, broadcastInDim S16x512x1 ![0, 1] bcast_S16x512_S16x512x1_0_1 lo⟩,
        ⟨S16x512x1, broadcastInDim S16x512x1 ![0, 1] bcast_S16x512_S16x512x1_0_1 hi⟩]
      concatenates_S16x512x1_S16x512x1_S16x512x2_d2 (ix3 b i (0 : Fin 2)) = lo (ix2 b i) := by
  refine (concatenate_pair_apply_left (s₁ := S16x512x1) (s₂ := S16x512x1) (2 : Fin 3) _ _ _ (ix3 b i (0 : Fin 2)) rfl (ix3 b i (0 : Fin 1)) ?_).trans ?_
  · intro a; match a with | ⟨0, _⟩ => rfl | ⟨1, _⟩ => rfl | ⟨2, _⟩ => rfl
  · refine broadcastInDim_apply _ _ lo (ix3 b i (0 : Fin 1)) (ix2 b i) ?_
    intro a; match a with | ⟨0, _⟩ => rfl | ⟨1, _⟩ => rfl

/-- … and entry 1 reads the second. -/
theorem pair_hi (lo hi : IVec S16x512 32) (b : Fin 16) (i : Fin 512) :
    concatenate S16x512x2 2 [⟨S16x512x1, broadcastInDim S16x512x1 ![0, 1] bcast_S16x512_S16x512x1_0_1 lo⟩,
        ⟨S16x512x1, broadcastInDim S16x512x1 ![0, 1] bcast_S16x512_S16x512x1_0_1 hi⟩]
      concatenates_S16x512x1_S16x512x1_S16x512x2_d2 (ix3 b i (1 : Fin 2)) = hi (ix2 b i) := by
  refine (concatenate_pair_apply_right (s₁ := S16x512x1) (s₂ := S16x512x1) (2 : Fin 3) _ _ _ (ix3 b i (1 : Fin 2)) rfl rfl (ix3 b i (0 : Fin 1)) ?_ ?_).trans ?_
  · intro a ha; match a with | ⟨0, _⟩ => rfl | ⟨1, _⟩ => rfl | ⟨2, _⟩ => exact absurd rfl ha
  · rfl
  · refine broadcastInDim_apply _ _ hi (ix3 b i (0 : Fin 1)) (ix2 b i) ?_
    intro a; match a with | ⟨0, _⟩ => rfl | ⟨1, _⟩ => rfl

variable (m : (ℓ : Loc nD τ sig) → Buf (Elt F) ℓ)

attribute [local irreducible] Host.reduceWindow concatenate in
set_option maxHeartbeats 1000000 in
/-- The bounds array as the kernel finds it. -/
theorem V_bounds (c : Dev nD) :
    (V m c main_v5 : S16x512x2.Idx → BitVec 32)
      = concatenate S16x512x2 2
          [⟨S16x512x1, broadcastInDim S16x512x1 ![0, 1] bcast_S16x512_S16x512x1_0_1
              (subi (cums (m ((c : Thread nD τ).loc main_arg7))) (durs (m ((c : Thread nD τ).loc main_arg7))))⟩,
           ⟨S16x512x1, broadcastInDim S16x512x1 ![0, 1] bcast_S16x512_S16x512x1_0_1 (cums (m ((c : Thread nD τ).loc main_arg7)))⟩]
          concatenates_S16x512x1_S16x512x1_S16x512x2_d2 := by
  dsimp only [Gen.V]
  simp only [Gen.hostOps0, Gen.hostOps0_1, Gen.hostOps0_2, List.flatten_cons, List.flatten_nil, List.append_nil,
    List.cons_append, List.nil_append]
  after_results
  rfl

/-- The row-mask column as the kernel finds it. -/
theorem V_xmask (c : Dev nD) :
    (V m c main_v7 : S16x512x1.Idx → F .f32)
      = fun i => shapeCast S16x512x1
          (fun i => shapeCast S16x512 (m ((c : Thread nD τ).loc main_arg2)) shapeCasts_S16x1x512_S16x512 i)
          shapeCasts_S16x512_S16x512x1 i := by
  dsimp only [Gen.V]
  simp only [Gen.hostOps0, Gen.hostOps0_1, Gen.hostOps0_2, List.flatten_cons, List.flatten_nil, List.append_nil,
    List.cons_append, List.nil_append]
  after_results
  rfl

/-- Lower bound of row `(b, i)`: the cumulative sum less the row's own duration. -/
theorem V_bounds_lo (c : Dev nD) (b : Fin 16) (i : Fin 512) :
    (V m c main_v5 : S16x512x2.Idx → BitVec 32) (ix3 b i (0 : Fin 2))
      = IntOp.subi (cums (m ((c : Thread nD τ).loc main_arg7)) (ix2 b i)) (durs (m ((c : Thread nD τ).loc main_arg7)) (ix2 b i)) := by
  rw [V_bounds]
  exact pair_lo _ _ b i

/-- Upper bound of row `(b, i)`: the cumulative sum. -/
theorem V_bounds_hi (c : Dev nD) (b : Fin 16) (i : Fin 512) :
    (V m c main_v5 : S16x512x2.Idx → BitVec 32) (ix3 b i (1 : Fin 2))
      = cums (m ((c : Thread nD τ).loc main_arg7)) (ix2 b i) := by
  rw [V_bounds]
  exact pair_hi _ _ b i

/-- The row mask of row `(b, i)`. -/
theorem V_xmask_apply (c : Dev nD) (b : Fin 16) (i : Fin 512) :
    (V m c main_v7 : S16x512x1.Idx → F .f32) (ix3 b i (0 : Fin 1))
      = (m ((c : Thread nD τ).loc main_arg2) : S16x1x512.Idx → F .f32) (ix3 b (0 : Fin 1) i) := by
  rw [V_xmask]
  refine (shapeCast_apply _ _ (ix3 b i (0 : Fin 1)) (ix2 b i) (by
    rw [Shape.rowMajor_val_three, Shape.rowMajor_val_two]
    show b.val * 512 + i.val = (b.val * 512 + i.val) * 1 + 0
    omega)).trans ?_
  exact shapeCast_apply _ _ (ix2 b i) (ix3 b (0 : Fin 1) i) (by
    rw [Shape.rowMajor_val_three, Shape.rowMajor_val_two]
    show (b.val * 1 + 0) * 512 + i.val = b.val * 512 + i.val
    omega)

end Cert.KernelIdeal.HostVals

end
-- ==== Proof.PathLaw.lean ====
/-
  The law that joins the two spellings of the monotonic path.

  With cumulative durations `c₀ ≤ c₁ ≤ …` (as signed 32-bit numbers), row `i` of the path is the
  indicator of the frames `j` with `c_{i-1} ≤ j < c_i`.  One side computes it with two comparisons
  and-ed together; the other as the difference of two step functions, "j < c_i" minus "j < c_{i-1}".
  For `c_{i-1} ≤ c_i` the two agree: the step at `c_{i-1}` is below the step at `c_i`, so the difference
  is 1 exactly between them.  The masks then enter as `(p · a) · b` on one side and `p · (a · b)`
  on the other, which is associativity of the product on the extended reals.
-/
import Idealize.ShloMosaic.PureOps.Ideal

noncomputable section

namespace Cert.PathLaw

open Idealize.ShloMosaic

theorem one_sub_one : (1 : EReal) - 1 = 0 := by
  rw [← EReal.coe_one, ← EReal.coe_sub]; simp

/-- The and of "cp ≤ J" and "J < cc" (signed), as a number, is the difference of the two steps when `cp ≤ cc`. -/
theorem interval_eq_steps (cp cc J : BitVec 32) (h : cp.toInt ≤ cc.toInt) :
    (((((IntOp.andi (IntOp.cmpi .sge J cp) (IntOp.cmpi .slt J cc)).setWidth 32).toInt : ℝ)) : EReal)
      = (if J.slt cc then (1 : EReal) else 0) - (if J.slt cp then (1 : EReal) else 0) := by
  unfold IntOp.andi IntOp.cmpi
  simp only [BitVec.slt, BitVec.sle]
  by_cases h1 : J.toInt < cc.toInt <;> by_cases h2 : J.toInt < cp.toInt
  · have h3 : ¬ cp.toInt ≤ J.toInt := by omega
    simp [h1, h2, h3, one_sub_one]
  · have h3 : cp.toInt ≤ J.toInt := by omega
    simp [h1, h2, h3]
  · exfalso; omega
  · have h3 : cp.toInt ≤ J.toInt := by omega
    simp [h1, h2, h3]

/-- A frame number below 2^31 is not negative as a signed word. -/
theorem frame_not_neg (j : ℕ) (hj : j < 2048) : (BitVec.ofNat 32 j).slt 0#32 = false := by
  have hn : (BitVec.ofNat 32 j).toNat = j := by
    rw [BitVec.toNat_ofNat]; omega
  have : (BitVec.ofNat 32 j).toInt = (j : ℤ) := by
    rw [BitVec.toInt_eq_toNat_cond, hn]; split <;> omega
  simp [BitVec.slt, this]

end Cert.PathLaw

end
-- ==== Proof.LibCumsumWindow.lean ====
import Mathlib.Algebra.BigOperators.Intervals
import Mathlib.Algebra.BigOperators.Fin
import Mathlib.Data.BitVec
import Idealize.ShloMosaic.PureOps
import Idealize.ShloMosaic.Lib.ValueIdx

/-!
# A running sum written as a padded sliding window

An integer running sum along the last axis of a `[B, N]` array can be written as a sliding-window
reduction: a window of `N` positions along the last axis, the operand padded by `N - 1` copies of the
initial value `0` on the low side. The window ending at column `i` then covers the padding and the
columns `0 … i`, so its sum is `x b 0 + … + x b i` in wrapping 32-bit arithmetic.

This file proves that reading (`cum_eq_sum`), the recurrence it satisfies (`cum_zero`, `cum_succ`,
`sub_eq_prev`, `sub_zero`), and — when every entry is between `0` and `U` as a signed number and
`N * U < 2 ^ 31` — that no partial sum wraps: the running sums are nonnegative, bounded by
`(i + 1) * U` and nondecreasing as signed numbers (`cum_bounds`, `cum_nonneg`, `cum_mono`).
-/

noncomputable section

namespace Cert.LibCumsumWindow

open Idealize.ShloMosaic Idealize.ShloMosaic.ValueIdx

variable {B N : Nat}

/-! ## The window's positions -/

/-- The window shape `[1, N]` has `N` positions. -/
theorem window_numel : (⟨2, ![1, N]⟩ : Shape).numel = N := by
  simp [Shape.numel, Fin.prod_univ_two]

/-- Position `n` of the window `[1, N]` in row-major order is `(0, n)`: its last coordinate is `n`, -/
theorem window_coord_one (n : Fin (⟨2, ![1, N]⟩ : Shape).numel) :
    (((⟨2, ![1, N]⟩ : Shape).rowMajor.symm n) 1).val = n.val := by
  have h := Shape.rowMajor_val_two ((⟨2, ![1, N]⟩ : Shape).rowMajor.symm n)
  rw [Equiv.apply_symm_apply] at h
  have h0 : (((⟨2, ![1, N]⟩ : Shape).rowMajor.symm n) 0).val < 1 :=
    (((⟨2, ![1, N]⟩ : Shape).rowMajor.symm n) 0).isLt
  have h0' : (((⟨2, ![1, N]⟩ : Shape).rowMajor.symm n) 0).val = 0 := by omega
  rw [h0'] at h
  omega

/-- and its first coordinate is `0`. -/
theorem window_coord_zero (n : Fin (⟨2, ![1, N]⟩ : Shape).numel) :
    (((⟨2, ![1, N]⟩ : Shape).rowMajor.symm n) 0).val = 0 := by
  have h0 : (((⟨2, ![1, N]⟩ : Shape).rowMajor.symm n) 0).val < 1 :=
    (((⟨2, ![1, N]⟩ : Shape).rowMajor.symm n) 0).isLt
  omega

/-! ## The window's sum -/

/-- Column `k` of row `b`, and `0` past the end of the row. -/
def entry (x : (⟨2, ![B, N]⟩ : Shape).Idx → BitVec 32) (b : Fin B) (k : Nat) : BitVec 32 :=
  if h : k < N then x (ix2 b ⟨k, h⟩) else 0#32

/-- What window position `n` contributes to the window that ends at column `i`: column
    `i + n - (N - 1)` when that is not in the low padding, the padding's `0` otherwise. -/
def term (x : (⟨2, ![B, N]⟩ : Shape).Idx → BitVec 32) (b : Fin B) (i n : Nat) : BitVec 32 :=
  if N - 1 ≤ i + n then entry x b (i + n - (N - 1)) else 0#32

/-- The sliding-window form of the running sum. -/
abbrev cum (x : (⟨2, ![B, N]⟩ : Shape).Idx → BitVec 32) (init : (⟨0, ![]⟩ : Shape).Idx → BitVec 32)
    (h : (⟨2, ![B, N]⟩ : Shape).ReduceWindows ![1, N] ![1, 1] ![0, N - 1] ![0, 0] ⟨2, ![B, N]⟩)
    (hu : 0 < (⟨0, ![]⟩ : Shape).numel) : (⟨2, ![B, N]⟩ : Shape).Idx → BitVec 32 :=
  Host.reduceWindow (s := ⟨2, ![B, N]⟩) (t := ⟨2, ![B, N]⟩) (u := ⟨0, ![]⟩) IntOp.addi
    ![1, N] ![1, 1] ![0, N - 1] ![0, 0] x init h hu

/-- Two folds whose steps agree are equal. -/
theorem foldl_congr_step {α β : Type} (l : List β) (f g : α → β → α) (a : α) (hfg : ∀ r n, f r n = g r n) :
    l.foldl f a = l.foldl g a := by
  rw [show f = g from funext fun r => funext fun n => hfg r n]

/-- A left fold by wrapping addition from `0` is the sum. -/
theorem foldl_addi_eq_sum {M : Nat} (G : Fin M → BitVec 32) :
    (List.finRange M).foldl (fun r n => IntOp.addi r (G n)) 0#32 = ∑ n : Fin M, G n := by
  rw [Fin.sum_univ_def, List.sum_eq_foldl, List.foldl_map]
  rfl

variable (x : (⟨2, ![B, N]⟩ : Shape).Idx → BitVec 32) (init : (⟨0, ![]⟩ : Shape).Idx → BitVec 32)
  (h : (⟨2, ![B, N]⟩ : Shape).ReduceWindows ![1, N] ![1, 1] ![0, N - 1] ![0, 0] ⟨2, ![B, N]⟩)
  (hu : 0 < (⟨0, ![]⟩ : Shape).numel)

/-- The window ending at column `i`, position by position. -/
theorem cum_eq_sum_term (hinit : init (Shape.Idx.first hu) = 0#32) (b : Fin B) (i : Fin N) :
    cum x init h hu (ix2 b i) = ∑ n ∈ Finset.range N, term x b i.val n := by
  refine (foldl_congr_step _ _ (fun r n => IntOp.addi r (term x b i.val n.val)) _ ?_).trans ?_
  · intro r n
    dsimp only
    congr 1
    rw [hinit]
    have hn : n.val < N := Nat.lt_of_lt_of_eq n.isLt window_numel
    have c0 : (((⟨2, ![1, N]⟩ : Shape).rowMajor.symm n) 0).val = 0 := window_coord_zero n
    have c1 : (((⟨2, ![1, N]⟩ : Shape).rowMajor.symm n) 1).val = n.val := window_coord_one n
    have hi := i.isLt
    unfold term entry
    by_cases hc : N - 1 ≤ i.val + n.val
    · have hlt : i.val + n.val - (N - 1) < N := by omega
      rw [if_pos hc, dif_pos hlt]
      split
      · congr 1
        funext a
        fin_cases a
        · apply Fin.ext
          show b.val * 1 + (((⟨2, ![1, N]⟩ : Shape).rowMajor.symm n) 0).val - 0 = b.val
          rw [c0]; omega
        · apply Fin.ext
          show i.val * 1 + (((⟨2, ![1, N]⟩ : Shape).rowMajor.symm n) 1).val - (N - 1) = i.val + n.val - (N - 1)
          rw [c1]; omega
      · rename_i hne
        exfalso
        apply hne
        intro a
        fin_cases a
        · show 0 ≤ b.val * 1 + (((⟨2, ![1, N]⟩ : Shape).rowMajor.symm n) 0).val ∧
            b.val * 1 + (((⟨2, ![1, N]⟩ : Shape).rowMajor.symm n) 0).val - 0 < B
          rw [c0]
          have hb := b.isLt
          omega
        · show N - 1 ≤ i.val * 1 + (((⟨2, ![1, N]⟩ : Shape).rowMajor.symm n) 1).val ∧
            i.val * 1 + (((⟨2, ![1, N]⟩ : Shape).rowMajor.symm n) 1).val - (N - 1) < N
          rw [c1]; omega
    · rw [if_neg hc]
      split
      · rename_i hin
        exfalso
        have h1 : N - 1 ≤ i.val * 1 + (((⟨2, ![1, N]⟩ : Shape).rowMajor.symm n) 1).val := (hin 1).1
        rw [c1] at h1
        omega
      · rfl
  · rw [hinit]
    refine (foldl_addi_eq_sum (fun n => term x b i.val n.val)).trans ?_
    refine (Fin.sum_univ_eq_sum_range (fun n => term x b i.val n) _).trans ?_
    exact congrArg (fun m => ∑ n ∈ Finset.range m, term x b i.val n) window_numel

/-- The window's positions read from the last backwards are the columns `i, i - 1, …, 0` and then
    padding: the window's sum is the sum of the columns up to `i`. -/
theorem sum_term_eq (b : Fin B) (i : Nat) (hi : i < N) :
    ∑ n ∈ Finset.range N, term x b i n = ∑ k ∈ Finset.range (i + 1), entry x b k := by
  refine (Finset.sum_range_reflect (term x b i) N).symm.trans ?_
  have h1 : ∀ j ∈ Finset.range N, term x b i (N - 1 - j) = if j ≤ i then entry x b (i - j) else 0#32 := by
    intro j hj
    have hj' := Finset.mem_range.1 hj
    unfold term
    by_cases hji : j ≤ i
    · rw [if_pos hji, if_pos (by omega)]
      congr 1
      omega
    · rw [if_neg hji, if_neg (by omega)]
  rw [Finset.sum_congr rfl h1]
  have hsub : Finset.range (i + 1) ⊆ Finset.range N := Finset.range_subset_range.2 (by omega)
  refine (Finset.sum_subset hsub (fun j _ hj => ?_)).symm.trans ?_
  · rw [Finset.mem_range] at hj
    exact if_neg (by omega)
  refine Eq.trans ?_ (Finset.sum_range_reflect (entry x b) (i + 1))
  refine Finset.sum_congr rfl (fun j hj => ?_)
  have hj' := Finset.mem_range.1 hj
  rw [if_pos (by omega)]
  congr 1

/-- The sliding-window form at column `i` is the sum of columns `0 … i`. -/
theorem cum_eq_sum (hinit : init (Shape.Idx.first hu) = 0#32) (b : Fin B) (i : Fin N) :
    cum x init h hu (ix2 b i) = ∑ k ∈ Finset.range (i.val + 1), entry x b k :=
  (cum_eq_sum_term x init h hu hinit b i).trans (sum_term_eq x b i.val i.isLt)

/-! ## The recurrence -/

/-- The running sum starts at the first column. -/
theorem cum_zero (hinit : init (Shape.Idx.first hu) = 0#32) (b : Fin B) (h0 : 0 < N) :
    cum x init h hu (ix2 b ⟨0, h0⟩) = x (ix2 b ⟨0, h0⟩) := by
  rw [cum_eq_sum x init h hu hinit b ⟨0, h0⟩]
  show ∑ k ∈ Finset.range 1, entry x b k = _
  rw [Finset.sum_range_one]
  exact dif_pos h0

/-- Each further column is added to the running sum so far (wrapping addition). -/
theorem cum_succ (hinit : init (Shape.Idx.first hu) = 0#32) (b : Fin B) (i : Nat) (hi : i + 1 < N) :
    cum x init h hu (ix2 b ⟨i + 1, hi⟩)
      = cum x init h hu (ix2 b ⟨i, Nat.lt_of_succ_lt hi⟩) + x (ix2 b ⟨i + 1, hi⟩) := by
  rw [cum_eq_sum x init h hu hinit b ⟨i + 1, hi⟩, cum_eq_sum x init h hu hinit b ⟨i, Nat.lt_of_succ_lt hi⟩]
  show ∑ k ∈ Finset.range (i + 1 + 1), entry x b k = ∑ k ∈ Finset.range (i + 1), entry x b k + _
  rw [Finset.sum_range_succ]
  congr 1
  exact dif_pos hi

/-- Taking a column back off the running sum leaves the running sum before it, -/
theorem sub_eq_prev (hinit : init (Shape.Idx.first hu) = 0#32) (b : Fin B) (i : Nat) (hi : i + 1 < N) :
    cum x init h hu (ix2 b ⟨i + 1, hi⟩) - x (ix2 b ⟨i + 1, hi⟩)
      = cum x init h hu (ix2 b ⟨i, Nat.lt_of_succ_lt hi⟩) := by
  rw [cum_succ x init h hu hinit b i hi]
  exact BitVec.add_sub_cancel _ _

/-- and at the first column leaves `0`. -/
theorem sub_zero (hinit : init (Shape.Idx.first hu) = 0#32) (b : Fin B) (h0 : 0 < N) :
    cum x init h hu (ix2 b ⟨0, h0⟩) - x (ix2 b ⟨0, h0⟩) = 0#32 := by
  rw [cum_zero x init h hu hinit b h0]
  exact BitVec.sub_self _

/-- The same two facts with the subtraction written as the integer operation. -/
theorem subi_eq_prev (hinit : init (Shape.Idx.first hu) = 0#32) (b : Fin B) (i : Nat) (hi : i + 1 < N) :
    IntOp.subi (cum x init h hu (ix2 b ⟨i + 1, hi⟩)) (x (ix2 b ⟨i + 1, hi⟩))
      = cum x init h hu (ix2 b ⟨i, Nat.lt_of_succ_lt hi⟩) :=
  sub_eq_prev x init h hu hinit b i hi

theorem subi_zero (hinit : init (Shape.Idx.first hu) = 0#32) (b : Fin B) (h0 : 0 < N) :
    IntOp.subi (cum x init h hu (ix2 b ⟨0, h0⟩)) (x (ix2 b ⟨0, h0⟩)) = 0#32 :=
  sub_zero x init h hu hinit b h0

/-! ## No wrap under a bound on the entries -/

/-- Adding two nonnegative signed numbers whose sum is below `2 ^ 31` does not wrap. -/
theorem toInt_add_of_nonneg (a c : BitVec 32) (ha : 0 ≤ a.toInt) (hc : 0 ≤ c.toInt)
    (hs : a.toInt + c.toInt < 2 ^ 31) : (a + c).toInt = a.toInt + c.toInt := by
  rw [BitVec.toInt_add]
  exact Int.bmod_eq_of_le_mul_two (by omega) (by omega)

/-- A partial sum of at most `i + 1` entries plus one more entry, all at most `U`, with `i + 2 ≤ N` and
    `N * U < 2 ^ 31`: at most `(i + 2) * U`, below `2 ^ 31`. -/
theorem step_bound (U : Int) (i : Nat) (hi : i + 1 < N) (hU0 : 0 ≤ U) (hU : (N : Int) * U < 2 ^ 31)
    (s e : Int) (hs : s ≤ ((i : Int) + 1) * U) (he : e ≤ U) :
    s + e ≤ ((i : Int) + 1 + 1) * U ∧ s + e < 2 ^ 31 := by
  have hexp : ((i : Int) + 1 + 1) * U = ((i : Int) + 1) * U + U := by rw [Int.add_mul _ 1 U, Int.one_mul]
  have hle : ((i : Int) + 1 + 1) * U ≤ (N : Int) * U := Int.mul_le_mul_of_nonneg_right (by omega) hU0
  constructor <;> omega

variable (U : Int)

/-- With entries in `[0, U]` as signed numbers and `N * U < 2 ^ 31`, the running sum at column `i` is in
    `[0, (i + 1) * U]` as a signed number. -/
theorem cum_bounds (hinit : init (Shape.Idx.first hu) = 0#32)
    (hx0 : ∀ (b : Fin B) (k : Fin N), 0 ≤ (x (ix2 b k)).toInt)
    (hxU : ∀ (b : Fin B) (k : Fin N), (x (ix2 b k)).toInt ≤ U) (hU : (N : Int) * U < 2 ^ 31) (b : Fin B) :
    ∀ (i : Nat) (hi : i < N), 0 ≤ (cum x init h hu (ix2 b ⟨i, hi⟩)).toInt ∧
      (cum x init h hu (ix2 b ⟨i, hi⟩)).toInt ≤ ((i : Int) + 1) * U
  | 0, hi => by
    rw [cum_zero x init h hu hinit b hi]
    refine ⟨hx0 b ⟨0, hi⟩, ?_⟩
    have := hxU b ⟨0, hi⟩
    simpa using this
  | i + 1, hi => by
    obtain ⟨p0, p1⟩ := cum_bounds hinit hx0 hxU hU b i (Nat.lt_of_succ_lt hi)
    have hU0 : 0 ≤ U := le_trans (hx0 b ⟨i + 1, hi⟩) (hxU b ⟨i + 1, hi⟩)
    obtain ⟨q0, q1⟩ := step_bound U i hi hU0 hU _ _ p1 (hxU b ⟨i + 1, hi⟩)
    rw [cum_succ x init h hu hinit b i hi, toInt_add_of_nonneg _ _ p0 (hx0 b ⟨i + 1, hi⟩) q1]
    refine ⟨Int.add_nonneg p0 (hx0 b ⟨i + 1, hi⟩), ?_⟩
    have hc : ((i + 1 : Nat) : Int) = (i : Int) + 1 := by omega
    rw [hc]
    exact q0

/-- Under those bounds the wrapping addition of the recurrence is the addition of signed numbers. -/
theorem cum_toInt_succ (hinit : init (Shape.Idx.first hu) = 0#32)
    (hx0 : ∀ (b : Fin B) (k : Fin N), 0 ≤ (x (ix2 b k)).toInt)
    (hxU : ∀ (b : Fin B) (k : Fin N), (x (ix2 b k)).toInt ≤ U) (hU : (N : Int) * U < 2 ^ 31) (b : Fin B)
    (i : Nat) (hi : i + 1 < N) :
    (cum x init h hu (ix2 b ⟨i + 1, hi⟩)).toInt
      = (cum x init h hu (ix2 b ⟨i, Nat.lt_of_succ_lt hi⟩)).toInt + (x (ix2 b ⟨i + 1, hi⟩)).toInt := by
  obtain ⟨p0, p1⟩ := cum_bounds x init h hu U hinit hx0 hxU hU b i (Nat.lt_of_succ_lt hi)
  have hU0 : 0 ≤ U := le_trans (hx0 b ⟨i + 1, hi⟩) (hxU b ⟨i + 1, hi⟩)
  obtain ⟨-, q1⟩ := step_bound U i hi hU0 hU _ _ p1 (hxU b ⟨i + 1, hi⟩)
  rw [cum_succ x init h hu hinit b i hi, toInt_add_of_nonneg _ _ p0 (hx0 b ⟨i + 1, hi⟩) q1]

/-- The running sums are nonnegative as signed numbers, -/
theorem cum_nonneg (hinit : init (Shape.Idx.first hu) = 0#32)
    (hx0 : ∀ (b : Fin B) (k : Fin N), 0 ≤ (x (ix2 b k)).toInt)
    (hxU : ∀ (b : Fin B) (k : Fin N), (x (ix2 b k)).toInt ≤ U) (hU : (N : Int) * U < 2 ^ 31)
    (b : Fin B) (i : Fin N) : 0 ≤ (cum x init h hu (ix2 b i)).toInt :=
  (cum_bounds x init h hu U hinit hx0 hxU hU b i.val i.isLt).1

/-- at most `(i + 1) * U` at column `i`, -/
theorem cum_le (hinit : init (Shape.Idx.first hu) = 0#32)
    (hx0 : ∀ (b : Fin B) (k : Fin N), 0 ≤ (x (ix2 b k)).toInt)
    (hxU : ∀ (b : Fin B) (k : Fin N), (x (ix2 b k)).toInt ≤ U) (hU : (N : Int) * U < 2 ^ 31)
    (b : Fin B) (i : Fin N) : (cum x init h hu (ix2 b i)).toInt ≤ ((i.val : Int) + 1) * U :=
  (cum_bounds x init h hu U hinit hx0 hxU hU b i.val i.isLt).2

/-- and nondecreasing along the row as signed numbers. -/
theorem cum_mono (hinit : init (Shape.Idx.first hu) = 0#32)
    (hx0 : ∀ (b : Fin B) (k : Fin N), 0 ≤ (x (ix2 b k)).toInt)
    (hxU : ∀ (b : Fin B) (k : Fin N), (x (ix2 b k)).toInt ≤ U) (hU : (N : Int) * U < 2 ^ 31) (b : Fin B)
    (i : Nat) (hi : i + 1 < N) :
    (cum x init h hu (ix2 b ⟨i, Nat.lt_of_succ_lt hi⟩)).toInt ≤ (cum x init h hu (ix2 b ⟨i + 1, hi⟩)).toInt := by
  rw [cum_toInt_succ x init h hu U hinit hx0 hxU hU b i hi]
  have := hx0 b ⟨i + 1, hi⟩
  omega

end Cert.LibCumsumWindow
-- ==== Proof.RefRun.lean ====
import proofs.«143569_j57878979281201_2_alg».proof.Proof.Gen.ReferenceIdeal
import Idealize.ShloMosaic.Lib.StableHlo.Run

/-!
# The reference's run

The reference program computes, from the token features `x`, the two masks `xm`, `ym` and the
integer durations `dur`, the alignment matrix

  `attn[b, i, j] = ([j < cum[b, i]] − [i ≥ 1 ∧ j < cum[b, i − 1]]) · xm[b, 0, i] · ym[b, 0, j]`,

`cum` the running sum of the durations, and the expanded features `mu[b, j, d] = Σ_i attn[b, i, j] · x[b, i, d]`.
Its @main is a straight line of twenty-four tensor operations once the three module-local functions
(the running sum, twice nested, and the padding) are unfolded at their calls. This file lists them,
names the composed terms of the two results (`refAttn`, `refMu`) and proves that every run ends
with the result buffers holding those terms of the argument buffers, the arguments unchanged.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The composed terms -/

/-- The durations with their unit axis dropped: the reshape of a `16×1×512` array to `16×512`. -/
def reshapeDur (dur : IVec S16x1x512 32) : IVec S16x512 32 :=
  shapeCast S16x512 dur shapeCasts_S16x1x512_S16x512

/-- The running sum of the durations along the token axis, as the reference computes it: a window of
    512 positions padded 511 low, summed from the constant zero. Entry `(b, i)` is the sum of the
    durations of batch `b` at tokens `0 … i`. -/
def cumRef (dur : IVec S16x1x512 32) : IVec S16x512 32 :=
  Host.reduceWindow IntOp.addi ![1, 512] ![1, 1] ![0, 511] ![0, 0] (reshapeDur dur)
    (broadcastInDim S_ ![] bcast_S_S_ (constantI S_ 32 0#32))
    reduceWindows_S16x512_S16x512_w1s1p0_0_w512s1p511_0 h_S_

/-- The indicator "frame `j` lies before the end of token `i`": the frame number compared, signed,
    against the running sum, the one-bit answer converted to a float. -/
def refInd (dur : IVec S16x1x512 32) : FVec F S16x512x2048 .f32 :=
  uitofp .f32
    (cmpi .slt
      (broadcastInDim S16x512x2048 ![0, 1, 2] bcast_S1x1x2048_S16x512x2048_0_1_2
        (broadcastInDim S1x1x2048 ![2] bcast_S2048_S1x1x2048_2 (iotaInDim S2048 32 0)))
      (broadcastInDim S16x512x2048 ![0, 1, 2] bcast_S16x512x1_S16x512x2048_0_1_2
        (broadcastInDim S16x512x1 ![0, 1] bcast_S16x512_S16x512x1_0_1 (cumRef dur))))

/-- The indicator shifted one token down: row 0 is the padding value (the integer zero converted),
    row `i ≥ 1` is the indicator's row `i − 1`. -/
def refIndShift (dur : IVec S16x1x512 32) : FVec F S16x512x2048 .f32 :=
  extractStridedSlice S16x512x2048 ![0, 0, 0]
    (pad S16x513x2048 ![0, 1, 0] ![0, 0, 0] ![0, 0, 0] (refInd (F := F) dur)
      (sitofp (F := F) .f32 (constantI S_ 32 0#32)) pads_S16x512x2048_S16x513x2048_000_100_000 h_S_)
    slices_S16x513x2048_S16x512x2048_0_0_0

/-- The outer product of the two masks, `xm[b, 0, i] · ym[b, 0, j]`, reshaped to `16×512×2048`. -/
def refMask (xm : FVec F S16x1x512 .f32) (ym : FVec F S16x1x2048 .f32) : FVec F S16x512x2048 .f32 :=
  shapeCast S16x512x2048
    (mulf
      (broadcastInDim S16x1x512x2048 ![0, 1, 2, 3] bcast_S16x1x512x1_S16x1x512x2048_0_1_2_3
        (broadcastInDim S16x1x512x1 ![0, 1, 2] bcast_S16x1x512_S16x1x512x1_0_1_2 xm))
      (broadcastInDim S16x1x512x2048 ![0, 1, 2, 3] bcast_S16x1x1x2048_S16x1x512x2048_0_1_2_3
        (broadcastInDim S16x1x1x2048 ![0, 1, 3] bcast_S16x1x2048_S16x1x1x2048_0_1_3 ym)))
    shapeCasts_S16x1x512x2048_S16x512x2048

/-- The reference's alignment matrix: (indicator − shifted indicator) × mask. Entry `(b, i, j)` is one
    exactly on the frames `j` that token `i` of batch `b` owns, times the two masks. -/
def refAttn (xm : FVec F S16x1x512 .f32) (ym : FVec F S16x1x2048 .f32) (dur : IVec S16x1x512 32) :
    FVec F S16x512x2048 .f32 :=
  mulf (subf (refInd dur) (refIndShift dur)) (refMask xm ym)

/-- The reference's expanded features: the alignment matrix contracted with `x` over the token axis,
    batch by batch. -/
def refMu (x : FVec F S16x512x256 .f32) (xm : FVec F S16x1x512 .f32) (ym : FVec F S16x1x2048 .f32)
    (dur : IVec S16x1x512 32) : FVec F S16x2048x256 .f32 :=
  Host.dotGeneral dot_S16x512x2048_S16x512x256_S16x2048x256_1_1_2_2_0_0 none (refAttn xm ym dur) x

/-! ## The operations and the run -/

/-- The reference's 24 operations in order, the three module-local functions' bodies listed at
    their call sites over the calls' records. -/
abbrev ops : List (HloOp τ sig (Elt F)) :=
  [ unary main_arg2 main_v0 (broadcastInDim S16x1x512x1 ![0, 1, 2] bcast_S16x1x512_S16x1x512x1_0_1_2 : (⟨S16x1x512, .f32⟩ : BufTy).Contents (Elt F) → (⟨S16x1x512x1, .f32⟩ : BufTy).Contents (Elt F)),
    unary main_arg5 main_v1 (broadcastInDim S16x1x1x2048 ![0, 1, 3] bcast_S16x1x2048_S16x1x1x2048_0_1_3 : (⟨S16x1x2048, .f32⟩ : BufTy).Contents (Elt F) → (⟨S16x1x1x2048, .f32⟩ : BufTy).Contents (Elt F)),
    unary main_v0 main_v2 (broadcastInDim S16x1x512x2048 ![0, 1, 2, 3] bcast_S16x1x512x1_S16x1x512x2048_0_1_2_3 : (⟨S16x1x512x1, .f32⟩ : BufTy).Contents (Elt F) → (⟨S16x1x512x2048, .f32⟩ : BufTy).Contents (Elt F)),
    unary main_v1 main_v3 (broadcastInDim S16x1x512x2048 ![0, 1, 2, 3] bcast_S16x1x1x2048_S16x1x512x2048_0_1_2_3 : (⟨S16x1x1x2048, .f32⟩ : BufTy).Contents (Elt F) → (⟨S16x1x512x2048, .f32⟩ : BufTy).Contents (Elt F)),
    binary main_v2 main_v3 main_v4 (mulf : (⟨S16x1x512x2048, .f32⟩ : BufTy).Contents (Elt F) → (⟨S16x1x512x2048, .f32⟩ : BufTy).Contents (Elt F) → (⟨S16x1x512x2048, .f32⟩ : BufTy).Contents (Elt F)),
    reshape main_v4 main_v5 rfl shapeCasts_S16x1x512x2048_S16x512x2048,
    reshape main_arg7 main_v6 rfl shapeCasts_S16x1x512_S16x512,
    TRef.nullary main_call0.call0.c (constantI S_ 32 0#32),
    TRef.unary main_call0.call0.c main_call0.call0.v0 (broadcastInDim S_ ![] bcast_S_S_),
    TRef.binary (.of main_v6 : TRef sig ⟨S16x512, .i32⟩) main_call0.call0.v0 main_call0.call0.v1 (fun x v => Host.reduceWindow IntOp.addi ![1, 512] ![1, 1] ![0, 511] ![0, 0] x v reduceWindows_S16x512_S16x512_w1s1p0_0_w512s1p511_0 h_S_),
    nullary main_v8 (iotaInDim S2048 32 0),
    unary main_v8 main_v9 (broadcastInDim S1x1x2048 ![2] bcast_S2048_S1x1x2048_2 : (⟨S2048, .i32⟩ : BufTy).Contents (Elt F) → (⟨S1x1x2048, .i32⟩ : BufTy).Contents (Elt F)),
    unary main_v7 main_v10 (broadcastInDim S16x512x1 ![0, 1] bcast_S16x512_S16x512x1_0_1 : (⟨S16x512, .i32⟩ : BufTy).Contents (Elt F) → (⟨S16x512x1, .i32⟩ : BufTy).Contents (Elt F)),
    unary main_v9 main_v11 (broadcastInDim S16x512x2048 ![0, 1, 2] bcast_S1x1x2048_S16x512x2048_0_1_2 : (⟨S1x1x2048, .i32⟩ : BufTy).Contents (Elt F) → (⟨S16x512x2048, .i32⟩ : BufTy).Contents (Elt F)),
    unary main_v10 main_v12 (broadcastInDim S16x512x2048 ![0, 1, 2] bcast_S16x512x1_S16x512x2048_0_1_2 : (⟨S16x512x1, .i32⟩ : BufTy).Contents (Elt F) → (⟨S16x512x2048, .i32⟩ : BufTy).Contents (Elt F)),
    binary main_v11 main_v12 main_v13 (cmpi .slt : (⟨S16x512x2048, .i32⟩ : BufTy).Contents (Elt F) → (⟨S16x512x2048, .i32⟩ : BufTy).Contents (Elt F) → (⟨S16x512x2048, .i1⟩ : BufTy).Contents (Elt F)),
    unary main_v13 main_v14 (uitofp .f32 : (⟨S16x512x2048, .i1⟩ : BufTy).Contents (Elt F) → (⟨S16x512x2048, .f32⟩ : BufTy).Contents (Elt F)),
    nullary main_c (constantI S_ 32 0#32),
    TRef.unary (.of main_c : TRef sig ⟨S_, .i32⟩) main_call1.v0 (sitofp .f32),
    TRef.binary (.of main_v14 : TRef sig ⟨S16x512x2048, .f32⟩) main_call1.v0 main_call1.v1 (fun x v => pad S16x513x2048 ![0, 1, 0] ![0, 0, 0] ![0, 0, 0] x v pads_S16x512x2048_S16x513x2048_000_100_000 h_S_),
    unary main_v15 main_v16 ((extractStridedSlice S16x512x2048 ![0, 0, 0] · slices_S16x513x2048_S16x512x2048_0_0_0) : (⟨S16x513x2048, .f32⟩ : BufTy).Contents (Elt F) → (⟨S16x512x2048, .f32⟩ : BufTy).Contents (Elt F)),
    binary main_v14 main_v16 main_v17 (subf : (⟨S16x512x2048, .f32⟩ : BufTy).Contents (Elt F) → (⟨S16x512x2048, .f32⟩ : BufTy).Contents (Elt F) → (⟨S16x512x2048, .f32⟩ : BufTy).Contents (Elt F)),
    binary main_v17 main_v5 main_v18 (mulf : (⟨S16x512x2048, .f32⟩ : BufTy).Contents (Elt F) → (⟨S16x512x2048, .f32⟩ : BufTy).Contents (Elt F) → (⟨S16x512x2048, .f32⟩ : BufTy).Contents (Elt F)),
    binary main_v18 main_arg0 main_v19 ((fun l r => Host.dotGeneral dot_S16x512x2048_S16x512x256_S16x2048x256_1_1_2_2_0_0 none l r) : (⟨S16x512x2048, .f32⟩ : BufTy).Contents (Elt F) → (⟨S16x512x256, .f32⟩ : BufTy).Contents (Elt F) → (⟨S16x2048x256, .f32⟩ : BufTy).Contents (Elt F)) ]

-- twenty-four binds re-associated under the three functions' unfoldings
set_option maxRecDepth 1024 in
/-- @main is that straight line: the three functions' definitions unfold at their calls and the
    records at their fields; both sides are then one chain of steps once sequencing is reassociated. -/
theorem main_eq (c : Dev nD) : main (F := F) c = seq ops := by
  simp only [main, fn_cumsum.body, fn_cumsum_0.body, fn_pad.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., unary_bufs_sub .., unary_bufs_sub .., binary_bufs_sub .., reshape_bufs_sub ..,
    reshape_bufs_sub .., nullary_bufs_sub .., unary_bufs_sub .., binary_bufs_sub .., nullary_bufs_sub .., unary_bufs_sub ..,
    unary_bufs_sub .., unary_bufs_sub .., unary_bufs_sub .., binary_bufs_sub .., unary_bufs_sub .., nullary_bufs_sub ..,
    unary_bufs_sub .., binary_bufs_sub .., unary_bufs_sub .., binary_bufs_sub .., binary_bufs_sub .., binary_bufs_sub ..⟩

-- the two sides agree operation by operation: no operation's definition is needed, so each stays opaque here
attribute [local irreducible] Host.reduceWindow pad shapeCast broadcastInDim extractStridedSlice mulf subf
  uitofp sitofp cmpi iotaInDim constantI in
/-- The fold at the alignment matrix's buffer is `refAttn` of the three argument buffers it reads:
    each operation's result at its own buffer is its function's value, and what is left — the
    transports of the typed references along equalities that hold by computation, and the reshapes'
    — is the identity, so the two sides agree by unfolding. -/
theorem attn_eq (V : Valuation τ sig (Elt F)) :
    after ops V (main_v18 : DevRef τ sig)
      = refAttn (V (main_arg2 : DevRef τ sig)) (V (main_arg5 : DevRef τ sig)) (V (main_arg7 : DevRef τ sig)) := by
  after_results
  rfl

attribute [local irreducible] Host.reduceWindow pad shapeCast broadcastInDim extractStridedSlice mulf subf
  uitofp sitofp cmpi iotaInDim constantI in
/-- The fold at the expanded features' buffer is `refMu` of the four argument buffers it reads. -/
theorem mu_eq (V : Valuation τ sig (Elt F)) :
    after ops V (main_v19 : DevRef τ sig)
      = refMu (V (main_arg0 : DevRef τ sig)) (V (main_arg2 : DevRef τ sig)) (V (main_arg5 : DevRef τ sig))
          (V (main_arg7 : DevRef τ sig)) := by
  after_results
  rfl

/-- On every device, for any float values, from any memory with zero counters: every weakly fair
    execution of the reference terminates with the two results at `refMu` and `refAttn` of the
    arguments' launch contents, and the eight arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19) = refMu (m ((c.tc : Thread nD τ).loc main_arg0)) (m ((c.tc : Thread nD τ).loc main_arg2)) (m ((c.tc : Thread nD τ).loc main_arg5)) (m ((c.tc : Thread nD τ).loc main_arg7))
      ∧ r.2.mem ((c.tc : Thread nD τ).loc main_v18) = refAttn (m ((c.tc : Thread nD τ).loc main_arg2)) (m ((c.tc : Thread nD τ).loc main_arg5)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v19).trans (mu_eq _),
      (h c main_v18).trans (attn_eq _),
      (h c main_arg0).trans (by after_results),
      (h c main_arg1).trans (by after_results),
      (h c main_arg2).trans (by after_results),
      (h c main_arg3).trans (by after_results),
      (h c main_arg4).trans (by after_results),
      (h c main_arg5).trans (by after_results),
      (h c main_arg6).trans (by after_results),
      (h c main_arg7).trans (by after_results)⟩)
    (run_seq scopedRefs_eq scopedSems_eq defs main (fun _ => ops) main_eq (fun _ => ops_sub) m ρ)

end Cert.ReferenceIdeal.RefRun

end
-- ==== Proof.RefRead.lean ====
import proofs.«143569_j57878979281201_2_alg».proof.Proof.RefRun
import Idealize.ShloMosaic.Lib.ValueIdx
import Idealize.ShloMosaic.Lib.ValueLayout
import Idealize.ShloMosaic.Lib.Pipeline.Value
import Idealize.ShloMosaic.PureOps.Ideal.Laws

/-!
# The reference's results read at an index

At the ideal values (a float an extended real) the reference's two results are read entry by entry:

* the indicator `[j < cum[b, i]]` is `1` or `0` as the frame number `j`, a 32-bit word, is below the
  running sum of the durations in the signed order;
* the shifted indicator is `0` on row `0` (the padding value: the integer zero converted) and the
  indicator's row `i − 1` on row `i ≥ 1`;
* the mask is `xm[b, 0, i] · ym[b, 0, j]`;
* the alignment matrix is (indicator − shifted indicator) · mask;
* the expanded features are `mu[b, j, d] = Σ_i attn[b, i, j] · x[b, i, d]`, the contraction's one axis
  re-indexed by the token number.
-/

noncomputable section

open scoped BigOperators

namespace Cert.ReferenceIdeal.RefRead

open Cert.ReferenceIdeal Cert.ReferenceIdeal.Gen Cert.ReferenceIdeal.RefRun Idealize.ShloMosaic Idealize.SL.Sem
  Idealize.ShloMosaic.ValueIdx

/-! ## The durations' reshape -/

/-- Dropping the unit axis keeps the entries: `(b, i)` of the reshaped durations is `(b, 0, i)` of the
    durations. -/
theorem reshape_dur_apply (dur : IVec S16x1x512 32) (b : Fin 16) (i : Fin 512) :
    reshapeDur dur (ix2 b i) = dur (ix3 b (0 : Fin 1) i) := by
  unfold reshapeDur
  refine shapeCast_apply dur _ (ix2 b i) (ix3 b (0 : Fin 1) i) ?_
  rw [Shape.rowMajor_val_three, Shape.rowMajor_val_two]
  show (b.val * 1 + 0) * 512 + i.val = b.val * 512 + i.val
  omega

/-! ## The indicator -/

/-- A signed comparison's one-bit answer, converted unsigned to an extended real, is `1` where the
    comparison holds and `0` where it does not. -/
theorem uitofp_cmpi_slt (x y : BitVec 32) :
    (FloatOps.uitofp (F := Ideal) .f32 (IntOp.cmpi .slt x y) : EReal) = if x.slt y then 1 else 0 := by
  show (((IntOp.cmpi .slt x y).toNat : ℝ) : EReal) = _
  unfold IntOp.cmpi
  cases x.slt y <;> simp

/-- The indicator at `(b, i, j)`: the frame number `j` against the running sum at `(b, i)`. -/
theorem refInd_apply (dur : IVec S16x1x512 32) (b : Fin 16) (i : Fin 512) (j : Fin 2048) :
    refInd (F := Ideal) dur (ix3 b i j)
      = if (BitVec.ofNat 32 j.val).slt (cumRef dur (ix2 b i)) then (1 : EReal) else 0 := by
  have hX : broadcastInDim S16x512x2048 ![0, 1, 2] bcast_S1x1x2048_S16x512x2048_0_1_2
      (broadcastInDim S1x1x2048 ![2] bcast_S2048_S1x1x2048_2 (iotaInDim S2048 32 0)) (ix3 b i j)
        = BitVec.ofNat 32 j.val := by
    refine (broadcastInDim_apply _ _ _ (ix3 b i j) (ix3 (0 : Fin 1) (0 : Fin 1) j) fun a => ?_).trans ?_
    · match a with
      | ⟨0, _⟩ => rfl
      | ⟨1, _⟩ => rfl
      | ⟨2, _⟩ => rfl
    refine (broadcastInDim_apply _ _ _ (ix3 (0 : Fin 1) (0 : Fin 1) j) (ix1 j) fun a => ?_).trans ?_
    · match a with
      | ⟨0, _⟩ => rfl
    rfl
  have hY : broadcastInDim S16x512x2048 ![0, 1, 2] bcast_S16x512x1_S16x512x2048_0_1_2
      (broadcastInDim S16x512x1 ![0, 1] bcast_S16x512_S16x512x1_0_1 (cumRef dur)) (ix3 b i j)
        = cumRef dur (ix2 b i) := by
    refine (broadcastInDim_apply _ _ _ (ix3 b i j) (ix3 b i (0 : Fin 1)) fun a => ?_).trans ?_
    · match a with
      | ⟨0, _⟩ => rfl
      | ⟨1, _⟩ => rfl
      | ⟨2, _⟩ => rfl
    refine broadcastInDim_apply _ _ _ (ix3 b i (0 : Fin 1)) (ix2 b i) fun a => ?_
    match a with
    | ⟨0, _⟩ => rfl
    | ⟨1, _⟩ => rfl
  exact (congrArg₂ (fun u v => (FloatOps.uitofp (F := Ideal) .f32 (IntOp.cmpi .slt u v) : EReal)) hX hY).trans
    (uitofp_cmpi_slt _ _)

/-! ## The padding -/

/-- Row `0` of an array padded by one row below its first row is the padding value. -/
theorem pad_row_zero {α : Type} (x : S16x512x2048.Idx → α) (v : S_.Idx → α) (b : Fin 16) (k : Fin 513) (j : Fin 2048)
    (hk : k.val = 0) :
    pad S16x513x2048 ![0, 1, 0] ![0, 0, 0] ![0, 0, 0] x v pads_S16x512x2048_S16x513x2048_000_100_000 h_S_ (ix3 b k j) = v ix0 := by
  unfold pad
  rw [dif_neg]
  · exact congrArg v (eq_ix0 _)
  · intro hin
    have h1 := (hin ⟨1, by decide⟩).1
    change 1 ≤ k.val at h1
    omega

/-- Row `i + 1` of that padded array is row `i` of the array. -/
theorem pad_row_succ {α : Type} (x : S16x512x2048.Idx → α) (v : S_.Idx → α) (b : Fin 16) (k : Fin 513) (i : Fin 512)
    (j : Fin 2048) (hk : k.val = i.val + 1) :
    pad S16x513x2048 ![0, 1, 0] ![0, 0, 0] ![0, 0, 0] x v pads_S16x512x2048_S16x513x2048_000_100_000 h_S_ (ix3 b k j) = x (ix3 b i j) := by
  unfold pad
  rw [dif_pos]
  · refine congrArg x (funext fun a => Fin.ext ?_)
    match a with
    | ⟨0, _⟩ => show (b.val - 0) / (0 + 1) = b.val; omega
    | ⟨1, _⟩ => show (k.val - 1) / (0 + 1) = i.val; omega
    | ⟨2, _⟩ => show (j.val - 0) / (0 + 1) = j.val; omega
  · intro a
    match a with
    | ⟨0, _⟩ => show 0 ≤ b.val ∧ (b.val - 0) % (0 + 1) = 0 ∧ (b.val - 0) / (0 + 1) < 16; omega
    | ⟨1, _⟩ => show 1 ≤ k.val ∧ (k.val - 1) % (0 + 1) = 0 ∧ (k.val - 1) / (0 + 1) < 512; omega
    | ⟨2, _⟩ => show 0 ≤ j.val ∧ (j.val - 0) % (0 + 1) = 0 ∧ (j.val - 0) / (0 + 1) < 2048; omega

/-- The shifted indicator at `(b, i, j)`: zero on row `0`, the indicator's row `i − 1` below it. -/
theorem refIndShift_apply (dur : IVec S16x1x512 32) (b : Fin 16) (i : Fin 512) (j : Fin 2048) :
    refIndShift (F := Ideal) dur (ix3 b i j)
      = if h : i.val = 0 then (0 : EReal)
        else (if (BitVec.ofNat 32 j.val).slt (cumRef dur (ix2 b ⟨i.val - 1, by omega⟩)) then 1 else 0) := by
  unfold refIndShift
  have hs : ∀ X : S16x513x2048.Idx → EReal,
      extractStridedSlice S16x512x2048 ![0, 0, 0] X slices_S16x513x2048_S16x512x2048_0_0_0 (ix3 b i j)
        = X (ix3 b (⟨i.val, by omega⟩ : Fin 513) j) :=
    fun X => slice3_axis1_apply (n0 := 16) (n1 := 513) (n2 := 2048) (m := 512) 0 X
      slices_S16x513x2048_S16x512x2048_0_0_0 b i j ⟨i.val, by omega⟩ (Nat.zero_add _).symm
  refine (hs _).trans ?_
  by_cases h : i.val = 0
  · rw [dif_pos h, pad_row_zero _ _ b _ j h]
    show ((((0#32 : BitVec 32).toInt : ℝ)) : EReal) = 0
    simp
  · rw [dif_neg h, pad_row_succ _ _ b _ ⟨i.val - 1, by omega⟩ j (by show i.val = i.val - 1 + 1; omega)]
    exact refInd_apply dur b _ j

/-! ## The mask -/

/-- The mask at `(b, i, j)` is the product of the two masks' entries. -/
theorem refMask_apply (xm : FVec Ideal S16x1x512 .f32) (ym : FVec Ideal S16x1x2048 .f32) (b : Fin 16) (i : Fin 512)
    (j : Fin 2048) :
    refMask (F := Ideal) xm ym (ix3 b i j) = xm (ix3 b (0 : Fin 1) i) * ym (ix3 b (0 : Fin 1) j) := by
  unfold refMask
  refine (shapeCast_apply _ _ (ix3 b i j) (ix4 b (0 : Fin 1) i j) ?_).trans ?_
  · rw [Shape.rowMajor_val_four, Shape.rowMajor_val_three]
    show ((b.val * 1 + 0) * 512 + i.val) * 2048 + j.val = (b.val * 512 + i.val) * 2048 + j.val
    omega
  have hx : broadcastInDim S16x1x512x2048 ![0, 1, 2, 3] bcast_S16x1x512x1_S16x1x512x2048_0_1_2_3
      (broadcastInDim S16x1x512x1 ![0, 1, 2] bcast_S16x1x512_S16x1x512x1_0_1_2 xm) (ix4 b (0 : Fin 1) i j)
        = xm (ix3 b (0 : Fin 1) i) := by
    refine (broadcastInDim_apply _ _ _ (ix4 b (0 : Fin 1) i j) (ix4 b (0 : Fin 1) i (0 : Fin 1)) fun a => ?_).trans ?_
    · match a with
      | ⟨0, _⟩ => rfl
      | ⟨1, _⟩ => rfl
      | ⟨2, _⟩ => rfl
      | ⟨3, _⟩ => rfl
    refine broadcastInDim_apply _ _ _ (ix4 b (0 : Fin 1) i (0 : Fin 1)) (ix3 b (0 : Fin 1) i) fun a => ?_
    match a with
    | ⟨0, _⟩ => rfl
    | ⟨1, _⟩ => rfl
    | ⟨2, _⟩ => rfl
  have hy : broadcastInDim S16x1x512x2048 ![0, 1, 2, 3] bcast_S16x1x1x2048_S16x1x512x2048_0_1_2_3
      (broadcastInDim S16x1x1x2048 ![0, 1, 3] bcast_S16x1x2048_S16x1x1x2048_0_1_3 ym) (ix4 b (0 : Fin 1) i j)
        = ym (ix3 b (0 : Fin 1) j) := by
    refine (broadcastInDim_apply _ _ _ (ix4 b (0 : Fin 1) i j) (ix4 b (0 : Fin 1) (0 : Fin 1) j) fun a => ?_).trans ?_
    · match a with
      | ⟨0, _⟩ => rfl
      | ⟨1, _⟩ => rfl
      | ⟨2, _⟩ => rfl
      | ⟨3, _⟩ => rfl
    refine broadcastInDim_apply _ _ _ (ix4 b (0 : Fin 1) (0 : Fin 1) j) (ix3 b (0 : Fin 1) j) fun a => ?_
    match a with
    | ⟨0, _⟩ => rfl
    | ⟨1, _⟩ => rfl
    | ⟨2, _⟩ => rfl
  exact (mulf_apply _ _ _).trans (congrArg₂ (fun u v : EReal => u * v) hx hy)

/-! ## The alignment matrix and the expanded features -/

/-- The alignment matrix at `(b, i, j)`: (indicator − shifted indicator) · mask. -/
theorem refAttn_apply (xm : FVec Ideal S16x1x512 .f32) (ym : FVec Ideal S16x1x2048 .f32) (dur : IVec S16x1x512 32)
    (b : Fin 16) (i : Fin 512) (j : Fin 2048) :
    refAttn (F := Ideal) xm ym dur (ix3 b i j)
      = ((if (BitVec.ofNat 32 j.val).slt (cumRef dur (ix2 b i)) then (1 : EReal) else 0)
          - (if h : i.val = 0 then (0 : EReal)
             else (if (BitVec.ofNat 32 j.val).slt (cumRef dur (ix2 b ⟨i.val - 1, by omega⟩)) then 1 else 0)))
        * (xm (ix3 b (0 : Fin 1) i) * ym (ix3 b (0 : Fin 1) j)) := by
  show (refInd (F := Ideal) dur (ix3 b i j) - refIndShift (F := Ideal) dur (ix3 b i j))
      * refMask (F := Ideal) xm ym (ix3 b i j) = _
  rw [refInd_apply, refIndShift_apply, refMask_apply]

/-- The expanded features at `(b, j, d)`: the sum over the tokens `i` of the alignment matrix's entry
    `(b, i, j)` times the feature `x[b, i, d]`. -/
theorem refMu_apply (x : FVec Ideal S16x512x256 .f32) (xm : FVec Ideal S16x1x512 .f32) (ym : FVec Ideal S16x1x2048 .f32)
    (dur : IVec S16x1x512 32) (b : Fin 16) (j : Fin 2048) (d : Fin 256) :
    refMu (F := Ideal) x xm ym dur (ix3 b j d)
      = ∑ i : Fin 512, refAttn (F := Ideal) xm ym dur (ix3 b i j) * x (ix3 b i d) := by
  show FloatOps.dotGeneral dot_S16x512x2048_S16x512x256_S16x2048x256_1_1_2_2_0_0 none .single (refAttn (F := Ideal) xm ym dur) x (ix3 b j d) = _
  rw [Ideal.dotGeneral_apply, ← Equiv.sum_comp (contrEquiv1 dot_S16x512x2048_S16x512x256_S16x2048x256_1_1_2_2_0_0 512 rfl rfl).symm]
  refine Finset.sum_congr rfl fun c _ => ?_
  have c3 := contrEquiv1_symm_val dot_S16x512x2048_S16x512x256_S16x2048x256_1_1_2_2_0_0 512 rfl rfl c
  have l3 : (dot_S16x512x2048_S16x512x256_S16x2048x256_1_1_2_2_0_0).lhsIdx (ix3 b j d) ((contrEquiv1 dot_S16x512x2048_S16x512x256_S16x2048x256_1_1_2_2_0_0 512 rfl rfl).symm c) = ix3 b c j := by
    funext ax; apply Fin.ext
    match ax with
    | ⟨0, _⟩ => simp [DotDims.lhsIdx, dot_S16x512x2048_S16x512x256_S16x2048x256_1_1_2_2_0_0]; rfl
    | ⟨1, _⟩ => simp [DotDims.lhsIdx, dot_S16x512x2048_S16x512x256_S16x2048x256_1_1_2_2_0_0]; exact c3
    | ⟨2, _⟩ => simp [DotDims.lhsIdx, dot_S16x512x2048_S16x512x256_S16x2048x256_1_1_2_2_0_0]; rfl
  have r3 : (dot_S16x512x2048_S16x512x256_S16x2048x256_1_1_2_2_0_0).rhsIdx (ix3 b j d) ((contrEquiv1 dot_S16x512x2048_S16x512x256_S16x2048x256_1_1_2_2_0_0 512 rfl rfl).symm c) = ix3 b c d := by
    funext ax; apply Fin.ext
    match ax with
    | ⟨0, _⟩ => simp [DotDims.rhsIdx, dot_S16x512x2048_S16x512x256_S16x2048x256_1_1_2_2_0_0]; rfl
    | ⟨1, _⟩ => simp [DotDims.rhsIdx, dot_S16x512x2048_S16x512x256_S16x2048x256_1_1_2_2_0_0]; exact c3
    | ⟨2, _⟩ => simp [DotDims.rhsIdx, dot_S16x512x2048_S16x512x256_S16x2048x256_1_1_2_2_0_0]; rfl
  rw [l3, r3]

end Cert.ReferenceIdeal.RefRead

end
-- ==== Proof.Bridge.lean ====
/-
  The two programs' results are one function of the arguments.

  Row `(b, i)` of the kernel's bounds array holds `c_i − d_i` and `c_i`, the cumulative durations of
  batch entry `b`; the reference compares the frame number with `c_i` and with `c_{i−1}`.  With the
  running-sum recurrence (`c_0 − d_0 = 0`, `c_{i+1} − d_{i+1} = c_i`) and the sums nondecreasing as
  signed numbers, the kernel's interval word is the reference's difference of steps; the masks
  re-associate; the expanded features are the same sum over the rows.
-/
import proofs.«143569_j57878979281201_2_alg».proof.Proof.KernelValue
import proofs.«143569_j57878979281201_2_alg».proof.Proof.KernelHost
import proofs.«143569_j57878979281201_2_alg».proof.Proof.PathLaw
import proofs.«143569_j57878979281201_2_alg».proof.Proof.LibCumsumWindow
import proofs.«143569_j57878979281201_2_alg».proof.Proof.RefRead

noncomputable section

namespace Cert.Bridge

open Idealize.ShloMosaic Idealize.ShloMosaic.TcCoe Idealize.SL.Sem Idealize.ShloMosaic.ValueIdx
open Cert.KernelIdeal.HostVals Cert.KernelIdeal.KValue Cert.KernelIdeal.Pay Cert.PathLaw Cert.ReferenceIdeal.RefRun Cert.ReferenceIdeal.RefRead

/-- The interval word of a row whose lower bound is the previous running sum, against the two steps. -/
theorem word_eq_of (cum : Fin 16 → Fin 512 → BitVec 32) (d : Fin 16 → Fin 512 → BitVec 32)
    (h0 : ∀ b, IntOp.subi (cum b ⟨0, by omega⟩) (d b ⟨0, by omega⟩) = 0#32)
    (hs : ∀ b (i : ℕ) (hi : i + 1 < 512), IntOp.subi (cum b ⟨i + 1, hi⟩) (d b ⟨i + 1, hi⟩) = cum b ⟨i, by omega⟩)
    (hn : ∀ b i, 0 ≤ (cum b i).toInt)
    (hm : ∀ b (i : ℕ) (hi : i + 1 < 512), (cum b ⟨i, by omega⟩).toInt ≤ (cum b ⟨i + 1, hi⟩).toInt)
    (b : Fin 16) (i : Fin 512) (j : Fin 2048) :
    ((((pathWord (IntOp.subi (cum b i) (d b i)) (cum b i) j.val).setWidth 32).toInt : ℝ) : EReal)
      = (if (BitVec.ofNat 32 j.val).slt (cum b i) then (1 : EReal) else 0)
        - (if h : i.val = 0 then (0 : EReal)
           else (if (BitVec.ofNat 32 j.val).slt (cum b ⟨i.val - 1, by omega⟩) then 1 else 0)) := by
  unfold pathWord
  obtain ⟨iv, hiv⟩ := i
  cases iv with
  | zero =>
    rw [h0 b, interval_eq_steps _ _ _ (by rw [show (0#32 : BitVec 32).toInt = 0 from by decide]; exact hn b _),
      frame_not_neg j.val j.isLt, dif_pos rfl]
    simp
  | succ k =>
    rw [hs b k hiv, interval_eq_steps _ _ _ (hm b k hiv), dif_neg (by simp)]
    rfl

section

variable (dur : IVec Cert.KernelIdeal.S16x1x512 32)

attribute [local irreducible] Host.reduceWindow in
/-- The kernel's running sums are the reference's: the same windowed sum of the same re-laid durations. -/
theorem cums_eq_cumRef : cums dur = cumRef dur := rfl

variable (hb : ∀ i : Cert.KernelIdeal.S16x1x512.Idx, 0 ≤ (dur i).toInt ∧ (dur i).toInt ≤ 4194303)

include hb in
/-- The kernel's interval word for row `(b, i)` at frame `j` is the reference's difference of steps. -/
theorem word_eq (b : Fin 16) (i : Fin 512) (j : Fin 2048) :
    ((((pathWord (IntOp.subi (cums dur (ix2 b i)) (durs dur (ix2 b i))) (cums dur (ix2 b i)) j.val).setWidth 32).toInt : ℝ) : EReal)
      = (if (BitVec.ofNat 32 j.val).slt (cumRef dur (ix2 b i)) then (1 : EReal) else 0)
        - (if h : i.val = 0 then (0 : EReal)
           else (if (BitVec.ofNat 32 j.val).slt (cumRef dur (ix2 b ⟨i.val - 1, by omega⟩)) then 1 else 0)) := by
  have hx0 : ∀ (b : Fin 16) (k : Fin 512), 0 ≤ (durs dur (ix2 b k)).toInt := fun b k => by
    rw [durs_apply]; exact (hb _).1
  have hxU : ∀ (b : Fin 16) (k : Fin 512), (durs dur (ix2 b k)).toInt ≤ 4194303 := fun b k => by
    rw [durs_apply]; exact (hb _).2
  rw [← cums_eq_cumRef]
  exact word_eq_of (fun b i => cums dur (ix2 b i)) (fun b i => durs dur (ix2 b i))
    (fun b => Cert.LibCumsumWindow.subi_zero _ _ _ _ rfl b (by omega))
    (fun b i hi => Cert.LibCumsumWindow.subi_eq_prev _ _ _ _ rfl b i hi)
    (fun b i => Cert.LibCumsumWindow.cum_nonneg _ _ _ _ 4194303 rfl hx0 hxU (by norm_num) b i)
    (fun b i hi => Cert.LibCumsumWindow.cum_mono _ _ _ _ 4194303 rfl hx0 hxU (by norm_num) b i hi)
    b i j

end

variable (m : (ℓ : Loc Cert.KernelIdeal.nD Cert.KernelIdeal.τ Cert.KernelIdeal.sig) → Buf (Elt Ideal) ℓ)

open Cert.KernelIdeal Cert.KernelIdeal.Gen in
/-- One alignment entry: the kernel's, over the arrays it finds, is the reference's, over the arguments. -/
theorem entry_eq (c : Dev nD)
    (hb : ∀ i : S16x1x512.Idx, 0 ≤ ((m ((c : Thread nD τ).loc main_arg7) : IVec S16x1x512 32) i).toInt
      ∧ ((m ((c : Thread nD τ).loc main_arg7) : IVec S16x1x512 32) i).toInt ≤ 4194303)
    (b : Fin 16) (i : Fin 512) (j : Fin 2048) :
    attnEntry (V m c main_v5) (V m c main_v7) (V m c main_arg5) b i j
      = refAttn (F := Ideal) (m ((c : Thread nD τ).loc main_arg2)) (m ((c : Thread nD τ).loc main_arg5))
          (m ((c : Thread nD τ).loc main_arg7)) (ix3 b i j) := by
  rw [refAttn_apply]
  unfold attnEntry
  rw [HostVals.V_bounds_lo, HostVals.V_bounds_hi, HostVals.V_xmask_apply, V_main_arg5,
    word_eq _ hb b i j, mul_assoc]

open Cert.KernelIdeal Cert.KernelIdeal.Gen in
theorem attn_eq (c : Dev nD)
    (hb : ∀ i : S16x1x512.Idx, 0 ≤ ((m ((c : Thread nD τ).loc main_arg7) : IVec S16x1x512 32) i).toInt
      ∧ ((m ((c : Thread nD τ).loc main_arg7) : IVec S16x1x512 32) i).toInt ≤ 4194303) :
    refAttn (F := Ideal) (m ((c : Thread nD τ).loc main_arg2)) (m ((c : Thread nD τ).loc main_arg5))
        (m ((c : Thread nD τ).loc main_arg7))
      = attnK (V m c main_v5) (V m c main_v7) (V m c main_arg5) := by
  refine funext fun (idx : S16x512x2048.Idx) => ?_
  obtain ⟨b, i, j, rfl⟩ : ∃ (b : Fin 16) (i : Fin 512) (j : Fin 2048), idx = ix3 b i j := ⟨idx 0, idx 1, idx 2, eq_ix3 idx⟩
  exact (entry_eq m c hb b i j).symm

open Cert.KernelIdeal Cert.KernelIdeal.Gen in
theorem mu_eq (c : Dev nD)
    (hb : ∀ i : S16x1x512.Idx, 0 ≤ ((m ((c : Thread nD τ).loc main_arg7) : IVec S16x1x512 32) i).toInt
      ∧ ((m ((c : Thread nD τ).loc main_arg7) : IVec S16x1x512 32) i).toInt ≤ 4194303) :
    refMu (F := Ideal) (m ((c : Thread nD τ).loc main_arg0)) (m ((c : Thread nD τ).loc main_arg2))
        (m ((c : Thread nD τ).loc main_arg5)) (m ((c : Thread nD τ).loc main_arg7))
      = muK (V m c main_arg0) (V m c main_v5) (V m c main_v7) (V m c main_arg5) := by
  refine funext fun (idx : S16x2048x256.Idx) => ?_
  obtain ⟨b, j, d, rfl⟩ : ∃ (b : Fin 16) (j : Fin 2048) (d : Fin 256), idx = ix3 b j d := ⟨idx 0, idx 1, idx 2, eq_ix3 idx⟩
  rw [refMu_apply]
  show _ = ∑ i : Fin 512, attnEntry (V m c main_v5) (V m c main_v7) (V m c main_arg5) b i j
      * (V m c main_arg0 : S16x512x256.Idx → EReal) (ix3 b i d)
  refine Finset.sum_congr rfl fun i _ => ?_
  rw [entry_eq m c hb b i j, V_main_arg0]

end Cert.Bridge

end
-- ==== Proof.PreDurations.lean ====
import proofs.«143569_j57878979281201_2_alg».proof.Pre_finite_inputs
import proofs.«143569_j57878979281201_2_alg».proof.Proof.Gen.Pre_finite_inputs
import Idealize.ShloMosaic.Lib.ReduceAll
import Idealize.ShloMosaic.Lib.ValueIdx

/-!
# The integer range the precondition states

The precondition is a conjunction of "all elements satisfy …" tests; its last two conjuncts compare every
element of the last (integer) argument with `0` from below and with `4194303 = 2 ^ 22 - 1` from above, as
signed numbers. If the whole conjunction is true then every element of that argument lies in
`[0, 4194303]`.
-/

noncomputable section

namespace Cert.PreDurations

open Idealize.ShloMosaic Idealize.SL.Sem Cert.Pre_finite_inputs

/-- A rank-zero array has exactly one index. -/
instance : Subsingleton S_.Idx := ⟨fun _ _ => funext fun d => d.elim0⟩

/-- If the precondition evaluates to true, every element of the last argument is between `0` and
    `4194303` as a signed number. -/
theorem durations_bounds {F : FTy → Type} [FloatOps F] [Facts]
    (a0 : FVec F S16x512x256 .f32) (a1 : IVec S16 32) (a2 : FVec F S16x1x512 .f32)
    (a3 : FVec F S16x80x2048 .f32) (a4 : IVec S16 32) (a5 : FVec F S16x1x2048 .f32)
    (a6 : FVec F S16x1x512 .f32) (a7 : IVec S16x1x512 32)
    (h : fn (F := F) a0 a1 a2 a3 a4 a5 a6 a7 = fun _ => 1#1) :
    ∀ i : S16x1x512.Idx, 0 ≤ (a7 i).toInt ∧ (a7 i).toInt ≤ 4194303 := by
  intro i
  have e : fn (F := F) a0 a1 a2 a3 a4 a5 a6 a7 ValueIdx.ix0 = 1#1 := congrFun h ValueIdx.ix0
  -- the outermost conjunction: (… ∧ all (a7 ≥ 0)) ∧ all (a7 ≤ 4194303)
  obtain ⟨e27, e30⟩ := IntOp.andi_eq_one.1 (show IntOp.andi _ _ = 1#1 from e)
  obtain ⟨-, e26⟩ := IntOp.andi_eq_one.1 (show IntOp.andi _ _ = 1#1 from e27)
  -- each "all" is a reduction by `and` into the single result index: every element is true
  have g0 := Host.reduce_andi_all _ _ _ _ _ e26 i
  have g1 := Host.reduce_andi_all _ _ _ _ _ e30 i
  -- an element of a signed comparison being true is the comparison of the signed values
  have c0 : (0#32 : BitVec 32).toInt ≤ (a7 i).toInt :=
    IntOp.cmpi_sge.1 (show IntOp.cmpi .sge (a7 i) (0#32) = 1#1 from g0)
  have c1 : (a7 i).toInt ≤ (4194303#32 : BitVec 32).toInt :=
    IntOp.cmpi_sle.1 (show IntOp.cmpi .sle (a7 i) (4194303#32) = 1#1 from g1)
  have z0 : (0#32 : BitVec 32).toInt = 0 := by decide
  have z1 : (4194303#32 : BitVec 32).toInt = 4194303 := by decide
  rw [z0] at c0
  rw [z1] at c1
  exact ⟨c0, c1⟩

end Cert.PreDurations
-- ==== Proof.lean ====
/-
  The certificate of the length regulator: durations → monotonic alignment path → expanded features.

  Both programs form the cumulative durations `c_i` of each batch entry with the same windowed integer
  sum.  The kernel marks frame `j` for row `i` when `c_i − d_i ≤ j < c_i` (two comparisons and-ed), the
  reference as the difference of the steps "j < c_i" and "j < c_{i−1}" (row 0 against nothing).  Since
  `c_i − d_i = c_{i−1}` in 32-bit arithmetic (and `c_0 − d_0 = 0`), and the durations are counts small
  enough that the cumulative sums do not wrap — so `c_{i−1} ≤ c_i` as signed numbers — the two markings
  agree (Proof/PathLaw.lean, Proof/LibCumsumWindow.lean).  The masks enter as `(p·a)·b` against
  `p·(a·b)`, and the expanded features are on both sides the sum over the rows of alignment times
  feature: the matrix unit's product into a zero accumulator and the host's dot_general are that sum
  at the exact extended reals.

  The kernel's run and value: the generated frame and blockwise value leg, read through the body's
  payloads (Proof/KernelPay.lean, Proof/KernelValue.lean) and the host lines before the kernel
  (Proof/KernelHost.lean).  The reference's run is written out operation by operation, its module-local
  functions inlined at their calls (Proof/RefRun.lean), and read at an index (Proof/RefRead.lean).
  The range of the durations comes from the precondition (Proof/PreDurations.lean).
-/
import proofs.«143569_j57878979281201_2_alg».proof.Defs
import proofs.«143569_j57878979281201_2_alg».proof.Proof.Gen.Kernel
import proofs.«143569_j57878979281201_2_alg».proof.Proof.Gen.Kernel.Skeleton
import proofs.«143569_j57878979281201_2_alg».proof.Proof.Gen.Kernel.Launch
import proofs.«143569_j57878979281201_2_alg».proof.Proof.Gen.Kernel.Points
import proofs.«143569_j57878979281201_2_alg».proof.Proof.Gen.Kernel.Frame
import proofs.«143569_j57878979281201_2_alg».proof.Proof.Gen.KernelIdeal
import proofs.«143569_j57878979281201_2_alg».proof.Proof.Gen.KernelIdeal.Skeleton
import proofs.«143569_j57878979281201_2_alg».proof.Proof.Gen.KernelIdeal.Launch
import proofs.«143569_j57878979281201_2_alg».proof.Proof.Gen.KernelIdeal.Points
import proofs.«143569_j57878979281201_2_alg».proof.Proof.Gen.KernelIdeal.Frame
import proofs.«143569_j57878979281201_2_alg».proof.Proof.Gen.KernelIdeal.Value
import proofs.«143569_j57878979281201_2_alg».proof.Proof.Gen.ReferenceIdeal
import proofs.«143569_j57878979281201_2_alg».proof.Proof.Gen.Pre_finite_inputs
import proofs.«143569_j57878979281201_2_alg».proof.Proof.Bridge
import proofs.«143569_j57878979281201_2_alg».proof.Proof.PreDurations
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2)
    (Cert.ReferenceIdeal.RefRun.run (F := Ideal) m ρ)

/-- The idealization rewrote nothing. -/
theorem preserves : Cert.preserves_Kernel_KernelIdeal := trivial

/-- Both programs end with the same two arrays: the kernel's, named by its value leg, are the reference's
    composed terms of the agreeing arguments, the durations being counts in the stated range. -/
theorem algebraic : Cert.algebraic_KernelIdeal_ReferenceIdeal := by
  intro m ρ m' ρ' hpre hagree
  refine ⟨_, _, Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.RefRun.run (F := Ideal) m' ρ')
  · obtain ⟨a0, -, a2, -, -, a5, -, a7⟩ := hagree c
    rw [a0, a2, a5, a7]
    exact Cert.Bridge.mu_eq m c (Cert.PreDurations.durations_bounds _ _ _ _ _ _ _ _ (hpre c))
  · obtain ⟨-, -, a2, -, -, a5, -, a7⟩ := hagree c
    rw [a2, a5, a7]
    exact Cert.Bridge.attn_eq m c (Cert.PreDurations.durations_bounds _ _ _ _ _ _ _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
